-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S72x64 : Shape := ⟨2, ![72, 64]⟩
abbrev S72 : Shape := ⟨1, ![72]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel
  bcast_S_S72x64 : S_.BroadcastsInDim S72x64 (![] : Fin 0 → Fin S72x64.rank)
  reducesTo_S72x64_S_d0_1 : S72x64.ReducesTo [0, 1] S_
  bcast_S_S72 : S_.BroadcastsInDim S72 (![] : Fin 0 → Fin S72.rank)
  reducesTo_S72_S_d0 : S72.ReducesTo [0] S_

variable [Facts]

def fn_part1 {F : FTy → Type} [FloatOps F] (main_arg4 : FVec F S72 .f32) (main_arg5 : FVec F S72 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S72 .f32 := Host.absf main_arg4
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  let main_v24 : FVec F S72 .f32 := Host.absf main_arg5
  let main_cst_8 : FVec F S_ .f32 := constant S_ .f32 0x7F800000#32
  let main_v25 : FVec F S72 .f32 := broadcastInDim S72 ![] bcast_S_S72 main_cst_8
  let main_v26 : IVec S72 1 := cmpf .olt main_v24 main_v25
  let main_c_9 : IVec S_ 1 := constantI S_ 1 1#1
  let main_v27 : IVec S_ 1 := (fun x v => Host.reduce IntOp.andi x v reducesTo_S72_S_d0 h_S_) main_v26 main_c_9
  let main_v28 : IVec S_ 1 := andi main_v23 main_v27
  main_v28

def fn {F : FTy → Type} [FloatOps F] (main_arg0 : FVec F S16x64x128x128 .f32) (main_arg1 : FVec F S72x64 .f32) (main_arg2 : FVec F S72 .f32) (main_arg3 : FVec F S72 .f32) (main_arg4 : FVec F S72 .f32) (main_arg5 : FVec F S72 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S72x64 .f32 := Host.absf main_arg1
  let main_cst_0 : FVec F S_ .f32 := constant S_ .f32 0x7F800000#32
  let main_v5 : FVec F S72x64 .f32 := broadcastInDim S72x64 ![] bcast_S_S72x64 main_cst_0
  let main_v6 : IVec S72x64 1 := cmpf .olt main_v4 main_v5
  let main_c_1 : IVec S_ 1 := constantI S_ 1 1#1
  let main_v7 : IVec S_ 1 := (fun x v => Host.reduce IntOp.andi x v reducesTo_S72x64_S_d0_1 h_S_) main_v6 main_c_1
  let main_v8 : IVec S_ 1 := andi main_v3 main_v7
  let main_v9 : FVec F S72 .f32 := Host.absf main_arg2
  let main_cst_2 : FVec F S_ .f32 := constant S_ .f32 0x7F800000#32
  let main_v10 : FVec F S72 .f32 := broadcastInDim S72 ![] bcast_S_S72 main_cst_2
  let main_v11 : IVec S72 1 := cmpf .olt main_v9 main_v10
  let main_c_3 : IVec S_ 1 := constantI S_ 1 1#1
  let main_v12 : IVec S_ 1 := (fun x v => Host.reduce IntOp.andi x v reducesTo_S72_S_d0 h_S_) main_v11 main_c_3
  let main_v13 : IVec S_ 1 := andi main_v8 main_v12
  let main_v14 : FVec F S72 .f32 := Host.absf main_arg3
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg4 main_arg5 main_v13 main_v16
-- ==== Kernel.lean ====
abbrev S16x64x128x128 : Shape := ⟨4, ![16, 64, 128, 128]⟩
abbrev S72x64 : Shape := ⟨2, ![72, 64]⟩
abbrev S72 : Shape := ⟨1, ![72]⟩
abbrev S16x1x64 : Shape := ⟨3, ![16, 1, 64]⟩
abbrev S1x64x128x128 : Shape := ⟨4, ![1, 64, 128, 128]⟩
abbrev S1x1x64 : Shape := ⟨3, ![1, 1, 64]⟩
abbrev S64x128x128 : Shape := ⟨3, ![64, 128, 128]⟩
abbrev S64 : Shape := ⟨1, ![64]⟩
abbrev S16x64 : Shape := ⟨2, ![16, 64]⟩
abbrev S64x72 : Shape := ⟨2, ![64, 72]⟩
abbrev S16x72 : Shape := ⟨2, ![16, 72]⟩
abbrev S1x72 : Shape := ⟨2, ![1, 72]⟩
abbrev S_ : Shape := ⟨0, ![]⟩
abbrev S16x8x9 : Shape := ⟨3, ![16, 8, 9]⟩
abbrev S16x8 : Shape := ⟨2, ![16, 8]⟩
abbrev S16x8x1 : Shape := ⟨3, ![16, 8, 1]⟩
abbrev S16x8x8x9 : Shape := ⟨4, ![16, 8, 8, 9]⟩
abbrev S16x64x9 : Shape := ⟨3, ![16, 64, 9]⟩
abbrev S1x64x9 : Shape := ⟨3, ![1, 64, 9]⟩
abbrev S64x9 : Shape := ⟨2, ![64, 9]⟩
abbrev S64x1x128 : Shape := ⟨3, ![64, 1, 128]⟩
abbrev S64x130x128 : Shape := ⟨3, ![64, 130, 128]⟩
abbrev S64x130x1 : Shape := ⟨3, ![64, 130, 1]⟩
abbrev S64x130x130 : Shape := ⟨3, ![64, 130, 130]⟩
abbrev S64x1 : Shape := ⟨2, ![64, 1]⟩
abbrev S64x1x1 : Shape := ⟨3, ![64, 1, 1]⟩

abbrev nBuf : Space → Nat
  | .hbm => 45
  | .vmem => 12
  | .smem => 0
  | _ => 0

abbrev bufTy : (tb : Table) → Fin (tcTables nBuf tb) → BufTy
  | .hbm, ⟨0, _⟩ => ⟨S16x64x128x128, .f32⟩
  | .hbm, ⟨1, _⟩ => ⟨S72x64, .f32⟩
  | .hbm, ⟨2, _⟩ => ⟨S72, .f32⟩
  | .hbm, ⟨3, _⟩ => ⟨S72, .f32⟩
  | .hbm, ⟨4, _⟩ => ⟨S72, .f32⟩
  | .hbm, ⟨5, _⟩ => ⟨S72, .f32⟩
  | .hbm, ⟨6, _⟩ => ⟨S16x1x64, .f32⟩
  | .hbm, ⟨7, _⟩ => ⟨S16x64, .f32⟩
  | .hbm, ⟨8, _⟩ => ⟨S64x72, .f32⟩
  | .hbm, ⟨9, _⟩ => ⟨S16x72, .f32⟩
  | .hbm, ⟨10, _⟩ => ⟨S1x72, .f32⟩
  | .hbm, ⟨11, _⟩ => ⟨S16x72, .f32⟩
  | .hbm, ⟨12, _⟩ => ⟨S16x72, .f32⟩
  | .hbm, ⟨13, _⟩ => ⟨S1x72, .f32⟩
  | .hbm, ⟨14, _⟩ => ⟨S16x72, .f32⟩
  | .hbm, ⟨15, _⟩ => ⟨S16x72, .f32⟩
  | .hbm, ⟨16, _⟩ => ⟨S_, .f32⟩
  | .hbm, ⟨17, _⟩ => ⟨S72, .f32⟩
  | .hbm, ⟨18, _⟩ => ⟨S72, .f32⟩
  | .hbm, ⟨19, _⟩ => ⟨S72, .f32⟩
  | .hbm, ⟨20, _⟩ => ⟨S1x72, .f32⟩
  | .hbm, ⟨21, _⟩ => ⟨S16x72, .f32⟩
  | .hbm, ⟨22, _⟩ => ⟨S16x72, .f32⟩
  | .hbm, ⟨23, _⟩ => ⟨S1x72, .f32⟩
  | .hbm, ⟨24, _⟩ => ⟨S16x72, .f32⟩
  | .hbm, ⟨25, _⟩ => ⟨S16x72, .f32⟩
  | .hbm, ⟨26, _⟩ => ⟨S16x8x9, .f32⟩
  | .hbm, ⟨27, _⟩ => ⟨S_, .f32⟩
  | .hbm, ⟨28, _⟩ => ⟨S16x8, .f32⟩
  | .hbm, ⟨29, _⟩ => ⟨S_, .f32⟩
  | .hbm, ⟨30, _⟩ => ⟨S16x8, .f32⟩
  | .hbm, ⟨31, _⟩ => ⟨S16x8, .f32⟩
  | .hbm, ⟨32, _⟩ => ⟨S16x8x1, .f32⟩
  | .hbm, ⟨33, _⟩ => ⟨S16x8x9, .f32⟩
  | .hbm, ⟨34, _⟩ => ⟨S16x8x9, .f32⟩
  | .hbm, ⟨35, _⟩ => ⟨S16x8x9, .f32⟩
  | .hbm, ⟨36, _⟩ => ⟨S_, .f32⟩
  | .hbm, ⟨37, _⟩ => ⟨S16x8, .f32⟩
  | .hbm, ⟨38, _⟩ => ⟨S16x8x1, .f32⟩
  | .hbm, ⟨39, _⟩ => ⟨S16x8x9, .f32⟩
  | .hbm, ⟨40, _⟩ => ⟨S16x8x9, .f32⟩
  | .hbm, ⟨41, _⟩ => ⟨S16x8x8x9, .f32⟩
  | .hbm, ⟨42, _⟩ => ⟨S16x64x9, .f32⟩
  | .hbm, ⟨43, _⟩ => ⟨S16x64x128x128, .f32⟩
  | .hbm, ⟨44, _⟩ => ⟨S16x64x128x128, .f32⟩
  | .local _ .vmem, ⟨0, _⟩ => ⟨S1x64x128x128, .f32⟩
  | .local _ .vmem, ⟨1, _⟩ => ⟨S1x64x128x128, .f32⟩
  | .local _ .vmem, ⟨2, _⟩ => ⟨S1x1x64, .f32⟩
  | .local _ .vmem, ⟨3, _⟩ => ⟨S1x1x64, .f32⟩
  | .local _ .vmem, ⟨4, _⟩ => ⟨S1x64x128x128, .f32⟩
  | .local _ .vmem, ⟨5, _⟩ => ⟨S1x64x128x128, .f32⟩
  | .local _ .vmem, ⟨6, _⟩ => ⟨S1x64x9, .f32⟩
  | .local _ .vmem, ⟨7, _⟩ => ⟨S1x64x9, .f32⟩
  | .local _ .vmem, ⟨8, _⟩ => ⟨S1x64x128x128, .f32⟩
  | .local _ .vmem, ⟨9, _⟩ => ⟨S1x64x128x128, .f32⟩
  | .local _ .vmem, ⟨10, _⟩ => ⟨S1x64x128x128, .f32⟩
  | .local _ .vmem, ⟨11, _⟩ => ⟨S1x64x128x128, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  reduces_S64x128x128_S64 : S64x128x128.Reduces [1, 2] S64
  inb_S1x1x64_S1x1x64_0_0_0 : ∀ a, (![0, 0, 0] : Fin 3 → Nat) a + S1x1x64.size a ≤ S1x1x64.size a
  h_S1x1x64 : 0 < S1x1x64.numel
  shapeCasts_S1x1x64_S64 : S1x1x64.ShapeCasts S64
  shapeCasts_S64_S1x1x64 : S64.ShapeCasts S1x1x64
  shapeCasts_S16x1x64_S16x64 : S16x1x64.ShapeCasts S16x64
  transposes_S72x64_S64x72_1_0 : S72x64.Transposes [1, 0] S64x72
  bcast_S72_S1x72_1 : S72.BroadcastsInDim S1x72 (![1] : Fin 1 → Fin S1x72.rank)
  bcast_S1x72_S16x72_0_1 : S1x72.BroadcastsInDim S16x72 (![0, 1] : Fin 2 → Fin S16x72.rank)
  bcast_S_S72 : S_.BroadcastsInDim S72 (![] : Fin 0 → Fin S72.rank)
  shapeCasts_S16x72_S16x8x9 : S16x72.ShapeCasts S16x8x9
  reducesTo_S16x8x9_S16x8_d2 : S16x8x9.ReducesTo [2] S16x8
  h_S_ : 0 < S_.numel
  bcast_S_S16x8 : S_.BroadcastsInDim S16x8 (![] : Fin 0 → Fin S16x8.rank)
  bcast_S16x8_S16x8x1_0_1 : S16x8.BroadcastsInDim S16x8x1 (![0, 1] : Fin 2 → Fin S16x8x1.rank)
  bcast_S16x8x1_S16x8x9_0_1_2 : S16x8x1.BroadcastsInDim S16x8x9 (![0, 1, 2] : Fin 3 → Fin S16x8x9.rank)
  bcast_S16x8x9_S16x8x8x9_0_1_3 : S16x8x9.BroadcastsInDim S16x8x8x9 (![0, 1, 3] : Fin 3 → Fin S16x8x8x9.rank)
  shapeCasts_S16x8x8x9_S16x64x9 : S16x8x8x9.ShapeCasts S16x64x9
  inb_S1x64x9_S1x64x9_0_0_0 : ∀ a, (![0, 0, 0] : Fin 3 → Nat) a + S1x64x9.size a ≤ S1x64x9.size a
  h_S1x64x9 : 0 < S1x64x9.numel
  shapeCasts_S1x64x9_S64x9 : S1x64x9.ShapeCasts S64x9
  slices_S64x128x128_o0_1_0_S64x1x128 : S64x128x128.Slices ![0, 1, 0] S64x1x128
  slices_S64x128x128_o0_126_0_S64x1x128 : S64x128x128.Slices ![0, 126, 0] S64x1x128
  concatenates_S64x1x128_S64x128x128_S64x1x128_S64x130x128_d1 : Shape.Concatenates [S64x1x128, S64x128x128, S64x1x128] S64x130x128 1
  slices_S64x130x128_o0_0_1_S64x130x1 : S64x130x128.Slices ![0, 0, 1] S64x130x1
  slices_S64x130x128_o0_0_126_S64x130x1 : S64x130x128.Slices ![0, 0, 126] S64x130x1
  concatenates_S64x130x1_S64x130x128_S64x130x1_S64x130x130_d2 : Shape.Concatenates [S64x130x1, S64x130x128, S64x130x1] S64x130x130 2
  slices_S64x130x130_o0_0_0_S64x128x128 : S64x130x130.Slices ![0, 0, 0] S64x128x128
  slices_S64x9_o0_0_S64x1 : S64x9.Slices ![0, 0] S64x1
  shapeCasts_S64x1_S64 : S64x1.ShapeCasts S64
  shapeCasts_S64_S64x1x1 : S64.ShapeCasts S64x1x1
  broadcasts_S64x1x1_S64x128x128 : S64x1x1.Broadcasts S64x128x128
  slices_S64x130x130_o0_0_1_S64x128x128 : S64x130x130.Slices ![0, 0, 1] S64x128x128
  slices_S64x9_o0_1_S64x1 : S64x9.Slices ![0, 1] S64x1
  slices_S64x130x130_o0_0_2_S64x128x128 : S64x130x130.Slices ![0, 0, 2] S64x128x128
  slices_S64x9_o0_2_S64x1 : S64x9.Slices ![0, 2] S64x1
  slices_S64x130x130_o0_1_0_S64x128x128 : S64x130x130.Slices ![0, 1, 0] S64x128x128
  slices_S64x9_o0_3_S64x1 : S64x9.Slices ![0, 3] S64x1
  slices_S64x130x130_o0_1_1_S64x128x128 : S64x130x130.Slices ![0, 1, 1] S64x128x128
  slices_S64x9_o0_4_S64x1 : S64x9.Slices ![0, 4] S64x1
  slices_S64x130x130_o0_1_2_S64x128x128 : S64x130x130.Slices ![0, 1, 2] S64x128x128
  slices_S64x9_o0_5_S64x1 : S64x9.Slices ![0, 5] S64x1
  slices_S64x130x130_o0_2_0_S64x128x128 : S64x130x130.Slices ![0, 2, 0] S64x128x128
  slices_S64x9_o0_6_S64x1 : S64x9.Slices ![0, 6] S64x1
  slices_S64x130x130_o0_2_1_S64x128x128 : S64x130x130.Slices ![0, 2, 1] S64x128x128
  slices_S64x9_o0_7_S64x1 : S64x9.Slices ![0, 7] S64x1
  slices_S64x130x130_o0_2_2_S64x128x128 : S64x130x130.Slices ![0, 2, 2] S64x128x128
  slices_S64x9_o0_8_S64x1 : S64x9.Slices ![0, 8] S64x1
  shapeCasts_S64x128x128_S1x64x128x128 : S64x128x128.ShapeCasts S1x64x128x128
  dot_S16x64_S64x72_S16x72_1_0_0_1_n_n_wf : DotDims.WF S16x64 S64x72 S16x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S16x64x128x128.size a
  hwx0_0 : ∀ i : grid0.Coords, EltTy.bits .f32 = 32 ∨ (Rect.block (s := S16x64x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S16x1x64.size a
  hwx0_1 : ∀ i : grid0.Coords, EltTy.bits .f32 = 32 ∨ (Rect.block (s := S16x1x64) S1x1x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128x128.size a ≤ S16x64x128x128.size a
  hwx1_0 : ∀ i : grid1.Coords, EltTy.bits .f32 = 32 ∨ (Rect.block (s := S16x64x128x128) S1x64x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x9.size a ≤ S16x64x9.size a
  hwx1_1 : ∀ i : grid1.Coords, EltTy.bits .f32 = 32 ∨ (Rect.block (s := S16x64x9) S1x64x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128x128.size a ≤ S16x64x128x128.size a
  hwx1_2 : ∀ i : grid1.Coords, EltTy.bits .f32 = 32 ∨ (Rect.block (s := S16x64x128x128) S1x64x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128x128.size a ≤ S16x64x128x128.size a
  hwx1_3 : ∀ i : grid1.Coords, EltTy.bits .f32 = 32 ∨ (Rect.block (s := S16x64x128x128) S1x64x128x128.size (cc1_transform_3 i) (hinb1_3 i)).WholeWords (EltTy.packing .f32)

variable [Facts₀]

def dot_S16x64_S64x72_S16x72_1_0_0_1_n_n : DotDims S16x64 S64x72 S16x72 where
  lhsContracting := [1]
  rhsContracting := [0]
  lhsNonContracting := [0]
  rhsNonContracting := [1]
  lhsBatch := []
  rhsBatch := []
  wf := dot_S16x64_S64x72_S16x72_1_0_0_1_n_n_wf

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x64x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33_0) S1x64x128x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33_1) S1x64x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x128x128 : Shape := ⟨4, ![16, 64, 128, 128]⟩
abbrev S72x64 : Shape := ⟨2, ![72, 64]⟩
abbrev S72 : Shape := ⟨1, ![72]⟩
abbrev S_ : Shape := ⟨0, ![]⟩
abbrev S16x64 : Shape := ⟨2, ![16, 64]⟩
abbrev S64x72 : Shape := ⟨2, ![64, 72]⟩
abbrev S16x72 : Shape := ⟨2, ![16, 72]⟩
abbrev S1x72 : Shape := ⟨2, ![1, 72]⟩
abbrev S16x8x9 : Shape := ⟨3, ![16, 8, 9]⟩
abbrev S16x8 : Shape := ⟨2, ![16, 8]⟩
abbrev S16x8x1 : Shape := ⟨3, ![16, 8, 1]⟩
abbrev S16x8x8x9 : Shape := ⟨4, ![16, 8, 8, 9]⟩
abbrev S16x64x9 : Shape := ⟨3, ![16, 64, 9]⟩
abbrev S16x64x1x128 : Shape := ⟨4, ![16, 64, 1, 128]⟩
abbrev S16x64x129x128 : Shape := ⟨4, ![16, 64, 129, 128]⟩
abbrev S16x64x130x128 : Shape := ⟨4, ![16, 64, 130, 128]⟩
abbrev S16x64x130x1 : Shape := ⟨4, ![16, 64, 130, 1]⟩
abbrev S16x64x130x129 : Shape := ⟨4, ![16, 64, 130, 129]⟩
abbrev S16x64x130x130 : Shape := ⟨4, ![16, 64, 130, 130]⟩
abbrev S16x64x1 : Shape := ⟨3, ![16, 64, 1]⟩
abbrev S16x64x1x1 : Shape := ⟨4, ![16, 64, 1, 1]⟩

abbrev nBuf : Space → Nat
  | .hbm => 129
  | .vmem => 0
  | .smem => 0
  | _ => 0

abbrev hbmTy0_0 (i : Nat) : BufTy := match i % 128 with
  | 0 => ⟨S16x64x128x128, .f32⟩
  | 1 => ⟨S72x64, .f32⟩
  | 2 => ⟨S72, .f32⟩
  | 3 => ⟨S72, .f32⟩
  | 4 => ⟨S72, .f32⟩
  | 5 => ⟨S72, .f32⟩
  | 6 => ⟨S_, .f32⟩
  | 7 => ⟨S16x64, .f32⟩
  | 8 => ⟨S_, .f32⟩
  | 9 => ⟨S16x64, .f32⟩
  | 10 => ⟨S16x64, .f32⟩
  | 11 => ⟨S64x72, .f32⟩
  | 12 => ⟨S16x72, .f32⟩
  | 13 => ⟨S1x72, .f32⟩
  | 14 => ⟨S16x72, .f32⟩
  | 15 => ⟨S16x72, .f32⟩
  | 16 => ⟨S1x72, .f32⟩
  | 17 => ⟨S16x72, .f32⟩
  | 18 => ⟨S16x72, .f32⟩
  | 19 => ⟨S_, .f32⟩
  | 20 => ⟨S72, .f32⟩
  | 21 => ⟨S72, .f32⟩
  | 22 => ⟨S72, .f32⟩
  | 23 => ⟨S1x72, .f32⟩
  | 24 => ⟨S16x72, .f32⟩
  | 25 => ⟨S16x72, .f32⟩
  | 26 => ⟨S1x72, .f32⟩
  | 27 => ⟨S16x72, .f32⟩
  | 28 => ⟨S16x72, .f32⟩
  | 29 => ⟨S16x8x9, .f32⟩
  | 30 => ⟨S_, .f32⟩
  | 31 => ⟨S16x8, .f32⟩
  | 32 => ⟨S_, .f32⟩
  | 33 => ⟨S16x8, .f32⟩
  | 34 => ⟨S16x8, .f32⟩
  | 35 => ⟨S16x8x1, .f32⟩
  | 36 => ⟨S16x8x9, .f32⟩
  | 37 => ⟨S16x8x9, .f32⟩
  | 38 => ⟨S16x8x9, .f32⟩
  | 39 => ⟨S_, .f32⟩
  | 40 => ⟨S16x8, .f32⟩
  | 41 => ⟨S16x8x1, .f32⟩
  | 42 => ⟨S16x8x9, .f32⟩
  | 43 => ⟨S16x8x9, .f32⟩
  | 44 => ⟨S16x8x8x9, .f32⟩
  | 45 => ⟨S16x64x9, .f32⟩
  | 46 => ⟨S_, .i32⟩
  | 47 => ⟨S16x64x1x128, .f32⟩
  | 48 => ⟨S16x64x1x128, .f32⟩
  | 49 => ⟨S16x64x1x128, .f32⟩
  | 50 => ⟨S16x64x129x128, .f32⟩
  | 51 => ⟨S16x64x1x128, .f32⟩
  | 52 => ⟨S16x64x1x128, .f32⟩
  | 53 => ⟨S16x64x1x128, .f32⟩
  | 54 => ⟨S16x64x130x128, .f32⟩
  | 55 => ⟨S16x64x130x1, .f32⟩
  | 56 => ⟨S16x64x130x1, .f32⟩
  | 57 => ⟨S16x64x130x1, .f32⟩
  | 58 => ⟨S16x64x130x129, .f32⟩
  | 59 => ⟨S16x64x130x1, .f32⟩
  | 60 => ⟨S16x64x130x1, .f32⟩
  | 61 => ⟨S16x64x130x1, .f32⟩
  | 62 => ⟨S16x64x130x130, .f32⟩
  | 63 => ⟨S_, .f32⟩
  | 64 => ⟨S16x64x128x128, .f32⟩
  | 65 => ⟨S16x64x128x128, .f32⟩
  | 66 => ⟨S16x64x1, .f32⟩
  | 67 => ⟨S16x64, .f32⟩
  | 68 => ⟨S16x64x1x1, .f32⟩
  | 69 => ⟨S16x64x128x128, .f32⟩
  | 70 => ⟨S16x64x128x128, .f32⟩
  | 71 => ⟨S16x64x128x128, .f32⟩
  | 72 => ⟨S16x64x128x128, .f32⟩
  | 73 => ⟨S16x64x1, .f32⟩
  | 74 => ⟨S16x64, .f32⟩
  | 75 => ⟨S16x64x1x1, .f32⟩
  | 76 => ⟨S16x64x128x128, .f32⟩
  | 77 => ⟨S16x64x128x128, .f32⟩
  | 78 => ⟨S16x64x128x128, .f32⟩
  | 79 => ⟨S16x64x128x128, .f32⟩
  | 80 => ⟨S16x64x1, .f32⟩
  | 81 => ⟨S16x64, .f32⟩
  | 82 => ⟨S16x64x1x1, .f32⟩
  | 83 => ⟨S16x64x128x128, .f32⟩
  | 84 => ⟨S16x64x128x128, .f32⟩
  | 85 => ⟨S16x64x128x128, .f32⟩
  | 86 => ⟨S16x64x128x128, .f32⟩
  | 87 => ⟨S16x64x1, .f32⟩
  | 88 => ⟨S16x64, .f32⟩
  | 89 => ⟨S16x64x1x1, .f32⟩
  | 90 => ⟨S16x64x128x128, .f32⟩
  | 91 => ⟨S16x64x128x128, .f32⟩
  | 92 => ⟨S16x64x128x128, .f32⟩
  | 93 => ⟨S16x64x128x128, .f32⟩
  | 94 => ⟨S16x64x1, .f32⟩
  | 95 => ⟨S16x64, .f32⟩
  | 96 => ⟨S16x64x1x1, .f32⟩
  | 97 => ⟨S16x64x128x128, .f32⟩
  | 98 => ⟨S16x64x128x128, .f32⟩
  | 99 => ⟨S16x64x128x128, .f32⟩
  | 100 => ⟨S16x64x128x128, .f32⟩
  | 101 => ⟨S16x64x1, .f32⟩
  | 102 => ⟨S16x64, .f32⟩
  | 103 => ⟨S16x64x1x1, .f32⟩
  | 104 => ⟨S16x64x128x128, .f32⟩
  | 105 => ⟨S16x64x128x128, .f32⟩
  | 106 => ⟨S16x64x128x128, .f32⟩
  | 107 => ⟨S16x64x128x128, .f32⟩
  | 108 => ⟨S16x64x1, .f32⟩
  | 109 => ⟨S16x64, .f32⟩
  | 110 => ⟨S16x64x1x1, .f32⟩
  | 111 => ⟨S16x64x128x128, .f32⟩
  | 112 => ⟨S16x64x128x128, .f32⟩
  | 113 => ⟨S16x64x128x128, .f32⟩
  | 114 => ⟨S16x64x128x128, .f32⟩
  | 115 => ⟨S16x64x1, .f32⟩
  | 116 => ⟨S16x64, .f32⟩
  | 117 => ⟨S16x64x1x1, .f32⟩
  | 118 => ⟨S16x64x128x128, .f32⟩
  | 119 => ⟨S16x64x128x128, .f32⟩
  | 120 => ⟨S16x64x128x128, .f32⟩
  | 121 => ⟨S16x64x128x128, .f32⟩
  | 122 => ⟨S16x64x1, .f32⟩
  | 123 => ⟨S16x64, .f32⟩
  | 124 => ⟨S16x64x1x1, .f32⟩
  | 125 => ⟨S16x64x128x128, .f32⟩
  | 126 => ⟨S16x64x128x128, .f32⟩
  | 127 => ⟨S16x64x128x128, .f32⟩
  | _ => ⟨S16x64x128x128, .f32⟩

abbrev hbmTy0_1 (i : Nat) : BufTy := match i % 128 with
  | 0 => ⟨S16x64x128x128, .f32⟩
  | _ => ⟨S16x64x128x128, .f32⟩

abbrev hbmTy (i : Nat) : BufTy := match i / 128 with
  | 0 => hbmTy0_0 i
  | 1 => hbmTy0_1 i
  | _ => ⟨S16x64x128x128, .f32⟩

abbrev bufTy : (tb : Table) → Fin (tcTables nBuf tb) → BufTy
  | .hbm, ⟨i, _⟩ => hbmTy i
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]

class Facts₀ : Prop where
  reducesTo_S16x64x128x128_S16x64_d2_3 : S16x64x128x128.ReducesTo [2, 3] S16x64
  h_S_ : 0 < S_.numel
  bcast_S_S16x64 : S_.BroadcastsInDim S16x64 (![] : Fin 0 → Fin S16x64.rank)
  transposes_S72x64_S64x72_1_0 : S72x64.Transposes [1, 0] S64x72
  bcast_S72_S1x72_1 : S72.BroadcastsInDim S1x72 (![1] : Fin 1 → Fin S1x72.rank)
  bcast_S1x72_S16x72_0_1 : S1x72.BroadcastsInDim S16x72 (![0, 1] : Fin 2 → Fin S16x72.rank)
  bcast_S_S72 : S_.BroadcastsInDim S72 (![] : Fin 0 → Fin S72.rank)
  shapeCasts_S16x72_S16x8x9 : S16x72.ShapeCasts S16x8x9
  reducesTo_S16x8x9_S16x8_d2 : S16x8x9.ReducesTo [2] S16x8
  bcast_S_S16x8 : S_.BroadcastsInDim S16x8 (![] : Fin 0 → Fin S16x8.rank)
  bcast_S16x8_S16x8x1_0_1 : S16x8.BroadcastsInDim S16x8x1 (![0, 1] : Fin 2 → Fin S16x8x1.rank)
  bcast_S16x8x1_S16x8x9_0_1_2 : S16x8x1.BroadcastsInDim S16x8x9 (![0, 1, 2] : Fin 3 → Fin S16x8x9.rank)
  bcast_S16x8x9_S16x8x8x9_0_1_3 : S16x8x9.BroadcastsInDim S16x8x8x9 (![0, 1, 3] : Fin 3 → Fin S16x8x8x9.rank)
  shapeCasts_S16x8x8x9_S16x64x9 : S16x8x8x9.ShapeCasts S16x64x9
  slices_S16x64x128x128_S16x64x1x128_0_0_0_0 : S16x64x128x128.Slices ![0, 0, 0, 0] S16x64x1x128
  slices_S16x64x128x128_S16x64x1x128_0_0_1_0 : S16x64x128x128.Slices ![0, 0, 1, 0] S16x64x1x128
  concatenates_S16x64x1x128_S16x64x128x128_S16x64x129x128_d2 : Shape.Concatenates [S16x64x1x128, S16x64x128x128] S16x64x129x128 2
  slices_S16x64x129x128_S16x64x1x128_0_0_128_0 : S16x64x129x128.Slices ![0, 0, 128, 0] S16x64x1x128
  slices_S16x64x129x128_S16x64x1x128_0_0_127_0 : S16x64x129x128.Slices ![0, 0, 127, 0] S16x64x1x128
  concatenates_S16x64x129x128_S16x64x1x128_S16x64x130x128_d2 : Shape.Concatenates [S16x64x129x128, S16x64x1x128] S16x64x130x128 2
  slices_S16x64x130x128_S16x64x130x1_0_0_0_0 : S16x64x130x128.Slices ![0, 0, 0, 0] S16x64x130x1
  slices_S16x64x130x128_S16x64x130x1_0_0_0_1 : S16x64x130x128.Slices ![0, 0, 0, 1] S16x64x130x1
  concatenates_S16x64x130x1_S16x64x130x128_S16x64x130x129_d3 : Shape.Concatenates [S16x64x130x1, S16x64x130x128] S16x64x130x129 3
  slices_S16x64x130x129_S16x64x130x1_0_0_0_128 : S16x64x130x129.Slices ![0, 0, 0, 128] S16x64x130x1
  slices_S16x64x130x129_S16x64x130x1_0_0_0_127 : S16x64x130x129.Slices ![0, 0, 0, 127] S16x64x130x1
  concatenates_S16x64x130x129_S16x64x130x1_S16x64x130x130_d3 : Shape.Concatenates [S16x64x130x129, S16x64x130x1] S16x64x130x130 3
  bcast_S_S16x64x128x128 : S_.BroadcastsInDim S16x64x128x128 (![] : Fin 0 → Fin S16x64x128x128.rank)
  slices_S16x64x130x130_S16x64x128x128_0_0_0_0 : S16x64x130x130.Slices ![0, 0, 0, 0] S16x64x128x128
  slices_S16x64x9_S16x64x1_0_0_0 : S16x64x9.Slices ![0, 0, 0] S16x64x1
  shapeCasts_S16x64x1_S16x64 : S16x64x1.ShapeCasts S16x64
  bcast_S16x64_S16x64x1x1_0_1 : S16x64.BroadcastsInDim S16x64x1x1 (![0, 1] : Fin 2 → Fin S16x64x1x1.rank)
  bcast_S16x64x1x1_S16x64x128x128_0_1_2_3 : S16x64x1x1.BroadcastsInDim S16x64x128x128 (![0, 1, 2, 3] : Fin 4 → Fin S16x64x128x128.rank)
  slices_S16x64x130x130_S16x64x128x128_0_0_0_1 : S16x64x130x130.Slices ![0, 0, 0, 1] S16x64x128x128
  slices_S16x64x9_S16x64x1_0_0_1 : S16x64x9.Slices ![0, 0, 1] S16x64x1
  slices_S16x64x130x130_S16x64x128x128_0_0_0_2 : S16x64x130x130.Slices ![0, 0, 0, 2] S16x64x128x128
  slices_S16x64x9_S16x64x1_0_0_2 : S16x64x9.Slices ![0, 0, 2] S16x64x1
  slices_S16x64x130x130_S16x64x128x128_0_0_1_0 : S16x64x130x130.Slices ![0, 0, 1, 0] S16x64x128x128
  slices_S16x64x9_S16x64x1_0_0_3 : S16x64x9.Slices ![0, 0, 3] S16x64x1
  slices_S16x64x130x130_S16x64x128x128_0_0_1_1 : S16x64x130x130.Slices ![0, 0, 1, 1] S16x64x128x128
  slices_S16x64x9_S16x64x1_0_0_4 : S16x64x9.Slices ![0, 0, 4] S16x64x1
  slices_S16x64x130x130_S16x64x128x128_0_0_1_2 : S16x64x130x130.Slices ![0, 0, 1, 2] S16x64x128x128
  slices_S16x64x9_S16x64x1_0_0_5 : S16x64x9.Slices ![0, 0, 5] S16x64x1
  slices_S16x64x130x130_S16x64x128x128_0_0_2_0 : S16x64x130x130.Slices ![0, 0, 2, 0] S16x64x128x128
  slices_S16x64x9_S16x64x1_0_0_6 : S16x64x9.Slices ![0, 0, 6] S16x64x1
  slices_S16x64x130x130_S16x64x128x128_0_0_2_1 : S16x64x130x130.Slices ![0, 0, 2, 1] S16x64x128x128
  slices_S16x64x9_S16x64x1_0_0_7 : S16x64x9.Slices ![0, 0, 7] S16x64x1
  slices_S16x64x130x130_S16x64x128x128_0_0_2_2 : S16x64x130x130.Slices ![0, 0, 2, 2] S16x64x128x128
  slices_S16x64x9_S16x64x1_0_0_8 : S16x64x9.Slices ![0, 0, 8] S16x64x1
  dot_S16x64_S64x72_S16x72_1_0_0_1_n_n_wf : DotDims.WF S16x64 S64x72 S16x72 [1] [0] [0] [1] [] []

variable [Facts₀]

def dot_S16x64_S64x72_S16x72_1_0_0_1_n_n : DotDims S16x64 S64x72 S16x72 where
  lhsContracting := [1]
  rhsContracting := [0]
  lhsNonContracting := [0]
  rhsNonContracting := [1]
  lhsBatch := []
  rhsBatch := []
  wf := dot_S16x64_S64x72_S16x72_1_0_0_1_n_n_wf

class Facts : Prop extends Facts₀ where

variable [Facts]
-- ==== Proof.LibFilterSum.lean ====
/-
  A sum over the members of a finite type that satisfy a predicate, re-indexed by a parametrisation of them.
-/
import Mathlib.Algebra.BigOperators.Group.Finset.Basic
import Mathlib.Data.Fintype.Basic

namespace Cert.LibFilterSum

open scoped BigOperators

/-- If `e` is injective, every value of `e` satisfies `P`, and every `i` satisfying `P` is a value of `e`, then the sum of
    `x` over the `i` that satisfy `P` is the sum of `x ∘ e` over all parameters.  (A reduction over some axes of an
    array, read at a kept index, is such a filtered sum; `e` inserts the reduced coordinates.) -/
theorem sum_filter_eq_sum_param {ι κ M : Type*} [Fintype ι] [DecidableEq ι] [Fintype κ] [AddCommMonoid M]
    (P : ι → Prop) [DecidablePred P] (x : ι → M) (e : κ → ι) (he : Function.Injective e)
    (hP : ∀ k, P (e k)) (hsurj : ∀ i, P i → ∃ k, e k = i) :
    ∑ i ∈ Finset.univ.filter P, x i = ∑ k, x (e k) := by
  have hset : Finset.univ.filter P = Finset.univ.image e := by
    ext i
    simp only [Finset.mem_filter, Finset.mem_univ, true_and, Finset.mem_image]
    exact ⟨fun h => hsurj i h, fun ⟨k, hk⟩ => hk ▸ hP k⟩
  rw [hset, Finset.sum_image (fun a _ b _ h => he h)]

end Cert.LibFilterSum
-- ==== Proof.Planes.lean ====
/-
  The two pooling reductions read as a sum over the plane.

  The kernel sums a [64, 128, 128] block over its last two axes; the reference sums the [16, 64, 128, 128] array over
  its last two axes.  Read at a kept index, each is the sum, over the source indices whose kept coordinates are that
  index, of the source; those indices are parametrised by the pair (h, w) of reduced coordinates, so the sum is the
  sum over all (h, w) of the source at (…, h, w).  The order of summation plays no part: addition of extended reals
  is commutative and associative.  The mean of a plane is that sum divided by 16384 (the f32 word 0x46800000).
-/
import proofs.«177280_j19877108645998_1_alg».proof.Proof.LibFilterSum
import Idealize.ShloMosaic.PureOps.Ideal
import Idealize.ShloMosaic.PureOps.Ideal.Laws
import Idealize.ShloMosaic.Lib.ValueIdx

noncomputable section

namespace Cert.Planes

open Idealize.ShloMosaic Idealize.ShloMosaic.ValueIdx
open scoped BigOperators

/-- The mean of plane (n, c) of the image array. -/
def planeMean (x : (⟨4, ![16, 64, 128, 128]⟩ : Shape).Idx → EReal) (n : Fin 16) (c : Fin 64) : EReal :=
  Ideal.div (∑ p : Fin 128 × Fin 128, x (ix4 n c p.1 p.2)) (Ideal.ofBits .f32 0x46800000#32)

/-- A [64, 128, 128] array summed over its last two axes, at channel `c`. -/
theorem reduceAdd_plane3 (h : (⟨3, ![64, 128, 128]⟩ : Shape).Reduces [1, 2] ⟨1, ![64]⟩)
    (x : (⟨3, ![64, 128, 128]⟩ : Shape).Idx → EReal) (c : Fin 64) :
    Ideal.reduceAdd h x (ix1 c) = ∑ p : Fin 128 × Fin 128, x (ix3 c p.1 p.2) := by
  unfold Ideal.reduceAdd
  refine Cert.LibFilterSum.sum_filter_eq_sum_param _ x (fun p : Fin 128 × Fin 128 => ix3 c p.1 p.2) ?_ ?_ ?_
  · intro p q hpq
    exact Prod.ext (congrFun hpq (1 : Fin 3)) (congrFun hpq (2 : Fin 3))
  · intro p
    funext b
    match b with
    | ⟨0, _⟩ => exact Fin.ext (h.drop_apply_val_of_eq (ix3 c p.1 p.2) (0 : Fin 1) (0 : Fin 3))
  · intro i hi
    refine ⟨(i 1, i 2), ?_⟩
    have h0 : (i 0).val = c.val :=
      (h.drop_apply_val_of_eq i (0 : Fin 1) (0 : Fin 3)).symm.trans (congrArg Fin.val (congrFun hi (0 : Fin 1)))
    funext b
    match b with
    | ⟨0, _⟩ => exact Fin.ext h0.symm
    | ⟨1, _⟩ => rfl
    | ⟨2, _⟩ => rfl

/-- The host's sum of the [16, 64, 128, 128] array over its last two axes, at (n, c): the initial value plus the
    plane's sum. -/
theorem hostReduceAdd_plane4 (h : (⟨4, ![16, 64, 128, 128]⟩ : Shape).ReducesTo [2, 3] ⟨2, ![16, 64]⟩)
    (x : (⟨4, ![16, 64, 128, 128]⟩ : Shape).Idx → EReal) (init : EReal) (n : Fin 16) (c : Fin 64) :
    Ideal.hostReduceAdd h x init (ix2 n c) = init + ∑ p : Fin 128 × Fin 128, x (ix4 n c p.1 p.2) := by
  unfold Ideal.hostReduceAdd
  refine congrArg (init + ·) ?_
  refine Cert.LibFilterSum.sum_filter_eq_sum_param _ x (fun p : Fin 128 × Fin 128 => ix4 n c p.1 p.2) ?_ ?_ ?_
  · intro p q hpq
    exact Prod.ext (congrFun hpq (2 : Fin 4)) (congrFun hpq (3 : Fin 4))
  · intro p
    funext b
    match b with
    | ⟨0, _⟩ => exact Fin.ext (h.drop_apply_val_of_eq (ix4 n c p.1 p.2) (0 : Fin 2) (0 : Fin 4))
    | ⟨1, _⟩ => exact Fin.ext (h.drop_apply_val_of_eq (ix4 n c p.1 p.2) (1 : Fin 2) (1 : Fin 4))
  · intro i hi
    refine ⟨(i 2, i 3), ?_⟩
    have h0 : (i 0).val = n.val :=
      (h.drop_apply_val_of_eq i (0 : Fin 2) (0 : Fin 4)).symm.trans (congrArg Fin.val (congrFun hi (0 : Fin 2)))
    have h1 : (i 1).val = c.val :=
      (h.drop_apply_val_of_eq i (1 : Fin 2) (1 : Fin 4)).symm.trans (congrArg Fin.val (congrFun hi (1 : Fin 2)))
    funext b
    match b with
    | ⟨0, _⟩ => exact Fin.ext h0.symm
    | ⟨1, _⟩ => exact Fin.ext h1.symm
    | ⟨2, _⟩ => rfl
    | ⟨3, _⟩ => rfl

end Cert.Planes

end
-- ==== Proof.KPool.lean ====
/-
  The first kernel's result array: the mean of every plane.

  The grid has 16 points; point `t` reads block `t` of the image array (batch element `t`: 64 × 128 × 128) and writes
  block `t` of the [16, 1, 64] result: for each channel the sum of the channel's plane over both its axes, divided
  by 16384.  The blocks tile the result, so the result array as a whole holds, at (n, 0, c), the mean of plane (n, c)
  of the image array as the kernel finds it.
-/
import proofs.«177280_j19877108645998_1_alg».proof.Proof.Gen.KernelIdeal.Frame
import proofs.«177280_j19877108645998_1_alg».proof.Proof.Planes
import Idealize.ShloMosaic.Lib.Pipeline.Value
import Idealize.ShloMosaic.Lib.ValueIdx

set_option maxRecDepth 16384

noncomputable section

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The result array [16, 1, 64] as a function of the image array. -/
def meansK (x : S16x64x128x128.Idx → EReal) : S16x1x64.Idx → EReal :=
  fun i => Cert.Planes.planeMean x (i 0) (i 2)

theorem meansK_apply (x : S16x64x128x128.Idx → EReal) (n : Fin 16) (c : Fin 64) :
    meansK x (ix3 n (0 : Fin 1) c) = Cert.Planes.planeMean x n c := rfl

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's result at channel `c`: the sum of the block's plane `c` divided by 16384. -/
theorem pool_body (x0 : Vec Ideal S1x64x128x128 .f32) (c : Fin 64) :
    out0_1 (F := Ideal) x0 (ix3 (0 : Fin 1) (0 : Fin 1) c)
      = Ideal.div (∑ p : Fin 128 × Fin 128, x0 (ix4 (0 : Fin 1) c p.1 p.2)) (Ideal.ofBits .f32 0x46800000#32) := by
  unfold out0_1
  rw [View.canon_unit_zero hz3]
  simp only [View.ld_unit_zero (S := S1x64x128x128) hz4]
  unfold k0_pay1
  refine (shapeCast_apply _ _ (ix3 (0 : Fin 1) (0 : Fin 1) c) (ix1 c) ?_).trans ?_
  · rw [Shape.rowMajor_val_one, Shape.rowMajor_val_three]
    show c.val = (0 * 1 + 0) * 64 + c.val
    omega
  · show Ideal.div (Ideal.reduceAdd reduces_S64x128x128_S64 (shapeCast S64x128x128 x0 shapeCasts_S1x64x128x128_S64x128x128) (ix1 c))
        (Ideal.ofBits .f32 0x46800000#32) = _
    refine congrArg (Ideal.div · (Ideal.ofBits .f32 0x46800000#32)) ?_
    refine (Cert.Planes.reduceAdd_plane3 _ _ c).trans ?_
    refine Finset.sum_congr rfl fun p _ => ?_
    refine shapeCast_apply _ _ (ix3 c p.1 p.2) (ix4 (0 : Fin 1) c p.1 p.2) ?_
    rw [Shape.rowMajor_val_four, Shape.rowMajor_val_three]
    show ((0 * 64 + c.val) * 128 + p.1.val) * 128 + p.2.val = (c.val * 128 + p.1.val) * 128 + p.2.val
    omega

/-- Both windows' block index at point `t` is (t, 0, …): decided over the sixteen points. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem lt16 (t : Fin cfg0.N) : t.val < 16 := lt_of_lt_of_eq t.isLt (N_0 : cfg0.N = 16)

/-- The batch element a point works on. -/
def bat (t : Fin cfg0.N) : Fin 16 := ⟨t.val, lt16 t⟩

/-- An element of the image block at point `t` is the image array's element of batch element `t`. -/
theorem img_blk (c : Dev nD) (t : Fin cfg0.N) (c' : Fin 64) (h w : Fin 128) :
    iblk0 V c 0 t (ix4 (0 : Fin 1) c' h w) = (V c main_arg0 : S16x64x128x128.Idx → EReal) (ix4 (bat t) c' h w) := by
  show V c main_arg0 (((cfg0.win 0).blk t).view.emb (ix4 (0 : Fin 1) c' h w)) = _
  refine congrArg (V c main_arg0) ?_
  obtain ⟨e0, e1, e2, e3, -⟩ := idx_facts t
  funext a; apply Fin.ext
  match a with
  | ⟨0, _⟩ => show win0_0.index t (0 : Fin 4) * 1 + 1 * 0 = t.val; omega
  | ⟨1, _⟩ => show win0_0.index t (1 : Fin 4) * 64 + 1 * c'.val = c'.val; omega
  | ⟨2, _⟩ => show win0_0.index t (2 : Fin 4) * 128 + 1 * h.val = h.val; omega
  | ⟨3, _⟩ => show win0_0.index t (3 : Fin 4) * 128 + 1 * w.val = w.val; omega

/-- Where an element of result block `t` sits in the result array. -/
theorem out_emb (t : Fin cfg0.N) (c' : Fin 64) :
    ((cfg0.win 1).blk t).view.emb (ix3 (0 : Fin 1) (0 : Fin 1) c') = (ix3 (bat t) (0 : Fin 1) c' : S16x1x64.Idx) := by
  obtain ⟨-, -, -, -, e0, e1, e2⟩ := idx_facts t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 64 + 1 * c'.val = c'.val; omega

/-- What point `t` writes back is block `t` of the array of means. -/
theorem flushed1_eq (c : Dev nD) (t : Fin cfg0.N) :
    (dat0 V c).flushed 1 t = ((cfg0.win 1).blk t).view.read (Elt Ideal) (meansK (V c main_arg0)) := by
  show (cfg0.win 1).cut (grid0.coords t) ((dat0 V c).after 1 t) = _
  rw [after0_1]
  refine funext fun (y : S1x1x64.Idx) => ?_
  obtain ⟨z, z', c', rfl⟩ : ∃ (z z' : Fin 1) (c' : Fin 64), y = ix3 z z' c' := ⟨y 0, y 1, y 2, eq_ix3 y⟩
  obtain rfl : z = 0 := Subsingleton.elim _ _
  obtain rfl : z' = 0 := Subsingleton.elim _ _
  show out0_1 (F := Ideal) (iblk0 V c 0 t) (ix3 (0 : Fin 1) (0 : Fin 1) c')
    = meansK (V c main_arg0) (((cfg0.win 1).blk t).view.emb (ix3 (0 : Fin 1) (0 : Fin 1) c'))
  rw [out_emb t c', meansK_apply, pool_body (iblk0 V c 0 t) c']
  unfold Cert.Planes.planeMean
  refine congrArg (Ideal.div · (Ideal.ofBits .f32 0x46800000#32)) ?_
  exact Finset.sum_congr rfl fun p _ => img_blk V c t c' p.1 p.2

/-- An index of the result array is in point `t`'s block iff each coordinate is in the block's range on its axis. -/
theorem mem_blk1 (t : Fin cfg0.N) (i : S16x1x64.Idx) :
    i ∈ ((cfg0.win 1).blk t).view.set ↔ ∀ a : Fin 3, win0_1.index t a * S1x1x64.size a ≤ (i a).val
      ∧ (i a).val < win0_1.index t a * S1x1x64.size a + S1x1x64.size a := by
  show i ∈ ((View.whole main_v0).slice (win0_1.rect t)).set ↔ _
  rw [View.set_slice_whole, Rect.mem_set_unit]
  exact Iff.rfl

/-- The point that covers an index: its batch coordinate. -/
def ptOf (i : S16x1x64.Idx) : Fin cfg0.N := ⟨(i 0).val, lt_of_lt_of_eq (i 0).isLt (N_0 : cfg0.N = 16).symm⟩

theorem cover1 (i : S16x1x64.Idx) :
    ∃ t : Fin cfg0.N, (cfg0.win 1).flush t = true ∧ i ∈ ((cfg0.win 1).blk t).view.set := by
  have h1 : (i 1).val < 1 := (i 1).isLt
  have h2 : (i 2).val < 64 := (i 2).isLt
  refine ⟨ptOf i, flush0_1 _, ?_⟩
  rw [mem_blk1]
  obtain ⟨-, -, -, -, e0, e1, e2⟩ := idx_facts (ptOf i)
  have e0' : win0_1.index (ptOf i) (0 : Fin 3) = (i 0).val := e0
  intro a
  match a with
  | ⟨0, _⟩ => show win0_1.index (ptOf i) (0 : Fin 3) * 1 ≤ (i 0).val ∧ (i 0).val < win0_1.index (ptOf i) (0 : Fin 3) * 1 + 1; omega
  | ⟨1, _⟩ => show win0_1.index (ptOf i) (1 : Fin 3) * 1 ≤ (i 1).val ∧ (i 1).val < win0_1.index (ptOf i) (1 : Fin 3) * 1 + 1; omega
  | ⟨2, _⟩ => show win0_1.index (ptOf i) (2 : Fin 3) * 64 ≤ (i 2).val ∧ (i 2).val < win0_1.index (ptOf i) (2 : Fin 3) * 64 + 64; omega

/-- The result array after the first kernel: the means of the planes of the image array it found. -/
theorem means_array (c : Dev nD) : (dat0 V c).arrAt 1 cfg0.N = meansK (V c main_arg0) :=
  (dat0 V c).arrAt_eq_of_cover 1 _ (fun t _ => flushed1_eq V c t) cover1

end Cert.KernelIdeal.Pool

end
-- ==== Proof.KGlue.lean ====
/-
  The host operations between the two kernels, as one function.

  From the per-channel means `p` (one row of 64 per batch element) the program computes the filter weights:
  a 1×1 convolution (a product with the transposed weight matrix), a batch normalisation with the running
  statistics (subtract the mean, scale by γ and by the reciprocal square root of the variance plus ε, add β),
  a softmax over each group of nine, and a repetition of each group's nine weights over the eight channels of the
  group.  The function is named here once, in the order the operations are written, and is never unfolded:
  both programs apply the same operations to their means, so only the means have to be compared.
-/
import proofs.«177280_j19877108645998_1_alg».proof.Proof.Gen.KernelIdeal.Launch
import Idealize.ShloMosaic.Lib.StableHlo.Run
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.SL.Sem

/-- The weights [16, 64, 9] from the means [16, 64], the convolution matrix and the four normalisation vectors. -/
def glueK (p : FVec Ideal S16x64 .f32) (a1 : FVec Ideal S72x64 .f32) (a2 a3 a4 a5 : FVec Ideal S72 .f32) :
    FVec Ideal S16x64x9 .f32 :=
  let v3 : FVec Ideal S16x72 .f32 := Host.dotGeneral (F := Ideal) dot_S16x64_S64x72_S16x72_1_0_0_1_n_n none p
    (transpose S64x72 [1, 0] a1 transposes_S72x64_S64x72_1_0)
  let v6 : FVec Ideal S16x72 .f32 := subf v3
    (broadcastInDim S16x72 ![0, 1] bcast_S1x72_S16x72_0_1 (broadcastInDim S1x72 ![1] bcast_S72_S1x72_1 a4))
  let v9 : FVec Ideal S16x72 .f32 := mulf
    (broadcastInDim S16x72 ![0, 1] bcast_S1x72_S16x72_0_1 (broadcastInDim S1x72 ![1] bcast_S72_S1x72_1 a2)) v6
  let v12 : FVec Ideal S72 .f32 := Host.rsqrt (F := Ideal)
    (addf a5 (broadcastInDim S72 ![] bcast_S_S72 (constant (F := Ideal) S_ .f32 0x3727C5AC#32)))
  let v15 : FVec Ideal S16x72 .f32 := mulf v9
    (broadcastInDim S16x72 ![0, 1] bcast_S1x72_S16x72_0_1 (broadcastInDim S1x72 ![1] bcast_S72_S1x72_1 v12))
  let v18 : FVec Ideal S16x72 .f32 := addf v15
    (broadcastInDim S16x72 ![0, 1] bcast_S1x72_S16x72_0_1 (broadcastInDim S1x72 ![1] bcast_S72_S1x72_1 a3))
  let v19 : FVec Ideal S16x8x9 .f32 := shapeCast S16x8x9 v18 shapeCasts_S16x72_S16x8x9
  let v20 : FVec Ideal S16x8 .f32 := Host.reduce (FloatOps.maximumf (F := Ideal) (φ := .f32)) v19
    (constant (F := Ideal) S_ .f32 0xFF800000#32) reducesTo_S16x8x9_S16x8_d2 h_S_
  let v22 : FVec Ideal S16x8 .f32 := maximumf
    (broadcastInDim S16x8 ![] bcast_S_S16x8 (constant (F := Ideal) S_ .f32 0xFF800000#32)) v20
  let v25 : FVec Ideal S16x8x9 .f32 := subf v19
    (broadcastInDim S16x8x9 ![0, 1, 2] bcast_S16x8x1_S16x8x9_0_1_2 (broadcastInDim S16x8x1 ![0, 1] bcast_S16x8_S16x8x1_0_1 v22))
  let v26 : FVec Ideal S16x8x9 .f32 := Host.exp (F := Ideal) v25
  let v27 : FVec Ideal S16x8 .f32 := Host.reduceAdd (F := Ideal) v26
    (constant (F := Ideal) S_ .f32 0x00000000#32) reducesTo_S16x8x9_S16x8_d2 h_S_
  let v30 : FVec Ideal S16x8x9 .f32 := Host.divf (F := Ideal) v26
    (broadcastInDim S16x8x9 ![0, 1, 2] bcast_S16x8x1_S16x8x9_0_1_2 (broadcastInDim S16x8x1 ![0, 1] bcast_S16x8_S16x8x1_0_1 v27))
  shapeCast S16x64x9 (broadcastInDim S16x8x8x9 ![0, 1, 3] bcast_S16x8x9_S16x8x8x9_0_1_3 v30) shapeCasts_S16x8x8x9_S16x64x9

/-- After the host operations the weight buffer holds `glueK` of the first kernel's result, cast from [16, 1, 64]
    to [16, 64], and of the five small arguments, whatever the buffers held before. -/
theorem weights_read (W : Valuation τ sig (Elt Ideal)) :
    (StableHlo.after (hostOps1 (F := Ideal)) W (Proc.devRef .tc main_v32) : S16x64x9.Idx → EReal)
      = glueK (shapeCast S16x64 (W (Proc.devRef .tc main_v0) : S16x1x64.Idx → EReal) shapeCasts_S16x1x64_S16x64)
          (W (Proc.devRef .tc main_arg1)) (W (Proc.devRef .tc main_arg2)) (W (Proc.devRef .tc main_arg3))
          (W (Proc.devRef .tc main_arg4)) (W (Proc.devRef .tc main_arg5)) := by
  dsimp only [hostOps1]
  after_results_simp
  rfl

/-- The host operations write neither the image array … -/
theorem image_kept (W : Valuation τ sig (Elt Ideal)) :
    StableHlo.after (hostOps1 (F := Ideal)) W (Proc.devRef .tc main_arg0) = W (Proc.devRef .tc main_arg0) := by
  dsimp only [hostOps1]
  after_results_simp

end Cert.KernelIdeal.Glue

end
-- ==== Proof.Spec.lean ====
/-
  What the two programs compute, as functions of the argument arrays over the extended reals.

  For one image plane `X` (one batch element, one channel, 128 × 128) and that channel's nine weights `W`,
  the low-pass value at pixel (h, w) is the sum over the 3 × 3 window of the reflection-padded plane times the
  weights, the taps taken row by row (tap (i, j) has weight index 3·i + j) and accumulated from the left
  starting at zero.  The padded plane has 130 × 130 entries; padded coordinate `a` reads source coordinate
  `refl a`: 0 ↦ 1, 129 ↦ 126, and a ↦ a − 1 in between (reflection without repeating the edge).
  The second result is the residual `x − low`.  The weights are a function of the per-channel means of `x`
  (a 1×1 convolution, a batch normalisation and a softmax over each group of nine); that function is the same
  sequence of host operations in both programs and is never opened here.
-/
import Idealize.ShloMosaic.PureOps.Ideal
import Idealize.ShloMosaic.Lib.ValueIdx

noncomputable section

namespace Cert.Spec

open Idealize.ShloMosaic Idealize.ShloMosaic.ValueIdx

/-- The image array [16, 64, 128, 128]. -/
abbrev SX : Shape := ⟨4, ![16, 64, 128, 128]⟩
/-- The weight array [16, 64, 9]. -/
abbrev SF : Shape := ⟨3, ![16, 64, 9]⟩

/-- The source coordinate that padded coordinate `a` (of 130) reads. -/
def refl (a : Nat) : Nat := if a = 0 then 1 else if a = 129 then 126 else a - 1

theorem refl_lt (a : Nat) (h : a < 130) : refl a < 128 := by
  unfold refl; split_ifs <;> omega

/-- The reflection-padded plane at padded coordinates (a, b), both below 130. -/
def padAt (X : Fin 128 → Fin 128 → EReal) (a b : Nat) (ha : a < 130) (hb : b < 130) : EReal :=
  X ⟨refl a, refl_lt a ha⟩ ⟨refl b, refl_lt b hb⟩

/-- Tap (i, j) of the window at pixel (h, w): the padded plane at (h + i, w + j) times weight `k`. -/
def tap (X : Fin 128 → Fin 128 → EReal) (W : Fin 9 → EReal) (h w : Fin 128) (i j k : Nat)
    (hi : i < 3) (hj : j < 3) (hk : k < 9) : EReal :=
  padAt X (h.val + i) (w.val + j) (by have := h.isLt; omega) (by have := w.isLt; omega) * W ⟨k, hk⟩

/-- The low-pass value of one plane at pixel (h, w): the nine taps added from the left onto zero
    (the f32 zero word, read at the extended reals). -/
def lowC (X : Fin 128 → Fin 128 → EReal) (W : Fin 9 → EReal) (h w : Fin 128) : EReal :=
  ((((((((Ideal.ofBits .f32 0x00000000#32
    + tap X W h w 0 0 0 (by omega) (by omega) (by omega))
    + tap X W h w 0 1 1 (by omega) (by omega) (by omega))
    + tap X W h w 0 2 2 (by omega) (by omega) (by omega))
    + tap X W h w 1 0 3 (by omega) (by omega) (by omega))
    + tap X W h w 1 1 4 (by omega) (by omega) (by omega))
    + tap X W h w 1 2 5 (by omega) (by omega) (by omega))
    + tap X W h w 2 0 6 (by omega) (by omega) (by omega))
    + tap X W h w 2 1 7 (by omega) (by omega) (by omega))
    + tap X W h w 2 2 8 (by omega) (by omega) (by omega)

/-- The first result: every plane of `x` filtered with its own nine weights. -/
def low (x : SX.Idx → EReal) (f : SF.Idx → EReal) : SX.Idx → EReal := fun i =>
  lowC (fun h w => x (ix4 (n0 := 16) (n1 := 64) (n2 := 128) (n3 := 128) (i 0) (i 1) h w))
    (fun k => f (ix3 (n0 := 16) (n1 := 64) (n2 := 9) (i 0) (i 1) k)) (i 2) (i 3)

/-- The second result: what the filter removed. -/
def resid (x : SX.Idx → EReal) (f : SF.Idx → EReal) : SX.Idx → EReal := fun i => x i - low x f i

theorem low_apply (x : SX.Idx → EReal) (f : SF.Idx → EReal) (n : Fin 16) (c : Fin 64) (h w : Fin 128) :
    low x f (ix4 n c h w) = lowC (fun h w => x (ix4 n c h w)) (fun k => f (ix3 n c k)) h w := rfl

theorem resid_apply (x : SX.Idx → EReal) (f : SF.Idx → EReal) (n : Fin 16) (c : Fin 64) (h w : Fin 128) :
    resid x f (ix4 n c h w)
      = x (ix4 n c h w) - lowC (fun h w => x (ix4 n c h w)) (fun k => f (ix3 n c k)) h w := rfl

end Cert.Spec

end
-- ==== Proof.KConvArr.lean ====
/-
  The second kernel's two result arrays, from its blocks.

  The grid has 16 points; point `t` works on batch element `t`: it reads block `t` of the image array
  (all 64 channels, 128 × 128) and block `t` of the weight array (64 × 9) and writes block `t` of each result.
  So an element (n, c, h, w) of a result is written exactly once, by point n, and holds the body's value at
  (c, h, w) of batch element n's blocks: the low-pass value of plane (n, c) with that plane's nine weights, or,
  for the second result, the image element minus it.  The blocks tile the arrays, so each result array as a whole
  is the specification's function of the image and weight arrays as the kernel finds them.
-/
import proofs.«177280_j19877108645998_1_alg».proof.Proof.Gen.KernelIdeal.Frame
import proofs.«177280_j19877108645998_1_alg».proof.Proof.Spec
import Idealize.ShloMosaic.Lib.Pipeline.Value
import Idealize.ShloMosaic.Lib.ValueIdx

set_option maxRecDepth 16384

noncomputable section

namespace Cert.KernelIdeal.ConvArr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What the body leaves at an index of the first output block (proved where the body is read). -/
def LowBody : Prop :=
  ∀ (x0 : Vec Ideal S1x64x128x128 .f32) (x1 : Vec Ideal S1x64x9 .f32) (c : Fin 64) (h w : Fin 128),
    out1_2 (F := Ideal) x0 x1 (ix4 (0 : Fin 1) c h w)
      = Cert.Spec.lowC (fun h w => x0 (ix4 (0 : Fin 1) c h w)) (fun k => x1 (ix3 (0 : Fin 1) c k)) h w

/-- What the body leaves at an index of the second output block. -/
def ResidBody : Prop :=
  ∀ (x0 : Vec Ideal S1x64x128x128 .f32) (x1 : Vec Ideal S1x64x9 .f32) (c : Fin 64) (h w : Fin 128),
    out1_3 (F := Ideal) x0 x1 (ix4 (0 : Fin 1) c h w)
      = x0 (ix4 (0 : Fin 1) c h w)
        - Cert.Spec.lowC (fun h w => x0 (ix4 (0 : Fin 1) c h w)) (fun k => x1 (ix3 (0 : Fin 1) c k)) h w

/-- Every window's block index at point `t` is (t, 0, …): decided over the sixteen points. -/
theorem idx_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = t.val ∧ win1_1.index t (1 : Fin 3) = 0 ∧ win1_1.index t (2 : Fin 3) = 0
    ∧ win1_2.index t (0 : Fin 4) = t.val ∧ win1_2.index t (1 : Fin 4) = 0 ∧ win1_2.index t (2 : Fin 4) = 0 ∧ win1_2.index t (3 : Fin 4) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

theorem lt16 (t : Fin cfg1.N) : t.val < 16 := lt_of_lt_of_eq t.isLt (N_1 : cfg1.N = 16)

/-- The batch element a point works on. -/
def bat (t : Fin cfg1.N) : Fin 16 := ⟨t.val, lt16 t⟩

/-- An element of the image block at point `t` is the image array's element of batch element `t`. -/
theorem img_blk (c : Dev nD) (t : Fin cfg1.N) (c' : Fin 64) (h w : Fin 128) :
    iblk1 V c 0 t (ix4 (0 : Fin 1) c' h w) = (V c main_arg0 : S16x64x128x128.Idx → EReal) (ix4 (bat t) c' h w) := by
  show V c main_arg0 (((cfg1.win 0).blk t).view.emb (ix4 (0 : Fin 1) c' h w)) = _
  refine congrArg (V c main_arg0) ?_
  obtain ⟨e0, e1, e2, e3, -⟩ := idx_facts t
  funext a; apply Fin.ext
  match a with
  | ⟨0, _⟩ => show win1_0.index t (0 : Fin 4) * 1 + 1 * 0 = t.val; omega
  | ⟨1, _⟩ => show win1_0.index t (1 : Fin 4) * 64 + 1 * c'.val = c'.val; omega
  | ⟨2, _⟩ => show win1_0.index t (2 : Fin 4) * 128 + 1 * h.val = h.val; omega
  | ⟨3, _⟩ => show win1_0.index t (3 : Fin 4) * 128 + 1 * w.val = w.val; omega

/-- An element of the weight block at point `t` is the weight array's element of batch element `t`. -/
theorem wts_blk (c : Dev nD) (t : Fin cfg1.N) (c' : Fin 64) (k : Fin 9) :
    iblk1 V c 1 t (ix3 (0 : Fin 1) c' k) = (V c main_v32 : S16x64x9.Idx → EReal) (ix3 (bat t) c' k) := by
  show V c main_v32 (((cfg1.win 1).blk t).view.emb (ix3 (0 : Fin 1) c' k)) = _
  refine congrArg (V c main_v32) ?_
  obtain ⟨-, -, -, -, e0, e1, e2, -⟩ := idx_facts t
  funext a; apply Fin.ext
  match a with
  | ⟨0, _⟩ => show win1_1.index t (0 : Fin 3) * 1 + 1 * 0 = t.val; omega
  | ⟨1, _⟩ => show win1_1.index t (1 : Fin 3) * 64 + 1 * c'.val = c'.val; omega
  | ⟨2, _⟩ => show win1_1.index t (2 : Fin 3) * 9 + 1 * k.val = k.val; omega

/-- Where an element of output block `t` sits in its array (the two output windows have the same map). -/
theorem out2_emb (t : Fin cfg1.N) (c' : Fin 64) (h w : Fin 128) :
    ((cfg1.win 2).blk t).view.emb (ix4 (0 : Fin 1) c' h w) = (ix4 (bat t) c' h w : S16x64x128x128.Idx) := by
  obtain ⟨-, -, -, -, -, -, -, e0, e1, e2, e3, -⟩ := idx_facts t
  funext a; apply Fin.ext
  match a with
  | ⟨0, _⟩ => show win1_2.index t (0 : Fin 4) * 1 + 1 * 0 = t.val; omega
  | ⟨1, _⟩ => show win1_2.index t (1 : Fin 4) * 64 + 1 * c'.val = c'.val; omega
  | ⟨2, _⟩ => show win1_2.index t (2 : Fin 4) * 128 + 1 * h.val = h.val; omega
  | ⟨3, _⟩ => show win1_2.index t (3 : Fin 4) * 128 + 1 * w.val = w.val; omega

theorem out3_emb (t : Fin cfg1.N) (c' : Fin 64) (h w : Fin 128) :
    ((cfg1.win 3).blk t).view.emb (ix4 (0 : Fin 1) c' h w) = (ix4 (bat t) c' h w : S16x64x128x128.Idx) := by
  obtain ⟨-, -, -, -, -, -, -, -, -, -, -, e0, e1, e2, e3⟩ := idx_facts t
  funext a; apply Fin.ext
  match a with
  | ⟨0, _⟩ => show win1_3.index t (0 : Fin 4) * 1 + 1 * 0 = t.val; omega
  | ⟨1, _⟩ => show win1_3.index t (1 : Fin 4) * 64 + 1 * c'.val = c'.val; omega
  | ⟨2, _⟩ => show win1_3.index t (2 : Fin 4) * 128 + 1 * h.val = h.val; omega
  | ⟨3, _⟩ => show win1_3.index t (3 : Fin 4) * 128 + 1 * w.val = w.val; omega

/-- The low-pass value computed from batch element `t`'s blocks is the one computed from the arrays. -/
theorem lowC_blk (c : Dev nD) (t : Fin cfg1.N) (c' : Fin 64) (h w : Fin 128) :
    Cert.Spec.lowC (fun h w => iblk1 V c 0 t (ix4 (0 : Fin 1) c' h w)) (fun k => iblk1 V c 1 t (ix3 (0 : Fin 1) c' k)) h w
      = Cert.Spec.lowC (fun h w => (V c main_arg0 : S16x64x128x128.Idx → EReal) (ix4 (bat t) c' h w))
          (fun k => (V c main_v32 : S16x64x9.Idx → EReal) (ix3 (bat t) c' k)) h w := by
  rw [show (fun h w => iblk1 V c 0 t (ix4 (0 : Fin 1) c' h w))
        = (fun h w => (V c main_arg0 : S16x64x128x128.Idx → EReal) (ix4 (bat t) c' h w)) from
      funext fun h => funext fun w => img_blk V c t c' h w,
    show (fun k => iblk1 V c 1 t (ix3 (0 : Fin 1) c' k))
        = (fun k => (V c main_v32 : S16x64x9.Idx → EReal) (ix3 (bat t) c' k)) from
      funext fun k => wts_blk V c t c' k]

/-- What point `t` writes back to the first result is block `t` of the specification's low-pass array. -/
theorem flushed2_eq (hB : LowBody) (c : Dev nD) (t : Fin cfg1.N) :
    (dat1 V c).flushed 2 t = ((cfg1.win 2).blk t).view.read (Elt Ideal)
      (Cert.Spec.low (V c main_arg0) (V c main_v32)) := by
  show (cfg1.win 2).cut (grid1.coords t) ((dat1 V c).after 2 t) = _
  rw [after1_2]
  refine funext fun (y : S1x64x128x128.Idx) => ?_
  obtain ⟨z, c', h, w, rfl⟩ : ∃ (z : Fin 1) (c' : Fin 64) (h w : Fin 128), y = ix4 z c' h w :=
    ⟨y 0, y 1, y 2, y 3, eq_ix4 y⟩
  obtain rfl : z = 0 := Subsingleton.elim _ _
  show out1_2 (F := Ideal) (iblk1 V c 0 t) (iblk1 V c 1 t) (ix4 (0 : Fin 1) c' h w)
    = Cert.Spec.low (V c main_arg0) (V c main_v32) (((cfg1.win 2).blk t).view.emb (ix4 (0 : Fin 1) c' h w))
  rw [out2_emb t c' h w, Cert.Spec.low_apply, hB (iblk1 V c 0 t) (iblk1 V c 1 t) c' h w]
  exact lowC_blk V c t c' h w

/-- What point `t` writes back to the second result is block `t` of the specification's residual array. -/
theorem flushed3_eq (hB : ResidBody) (c : Dev nD) (t : Fin cfg1.N) :
    (dat1 V c).flushed 3 t = ((cfg1.win 3).blk t).view.read (Elt Ideal)
      (Cert.Spec.resid (V c main_arg0) (V c main_v32)) := by
  show (cfg1.win 3).cut (grid1.coords t) ((dat1 V c).after 3 t) = _
  rw [after1_3]
  refine funext fun (y : S1x64x128x128.Idx) => ?_
  obtain ⟨z, c', h, w, rfl⟩ : ∃ (z : Fin 1) (c' : Fin 64) (h w : Fin 128), y = ix4 z c' h w :=
    ⟨y 0, y 1, y 2, y 3, eq_ix4 y⟩
  obtain rfl : z = 0 := Subsingleton.elim _ _
  show out1_3 (F := Ideal) (iblk1 V c 0 t) (iblk1 V c 1 t) (ix4 (0 : Fin 1) c' h w)
    = Cert.Spec.resid (V c main_arg0) (V c main_v32) (((cfg1.win 3).blk t).view.emb (ix4 (0 : Fin 1) c' h w))
  rw [out3_emb t c' h w, Cert.Spec.resid_apply, hB (iblk1 V c 0 t) (iblk1 V c 1 t) c' h w,
    img_blk V c t c' h w, lowC_blk V c t c' h w]

/-- An index of a result array is in point `t`'s block iff each coordinate is in the block's range on its axis. -/
theorem mem_blk2 (t : Fin cfg1.N) (i : S16x64x128x128.Idx) :
    i ∈ ((cfg1.win 2).blk t).view.set ↔ ∀ a : Fin 4, win1_2.index t a * S1x64x128x128.size a ≤ (i a).val
      ∧ (i a).val < win1_2.index t a * S1x64x128x128.size a + S1x64x128x128.size a := by
  show i ∈ ((View.whole main_v33_0).slice (win1_2.rect t)).set ↔ _
  rw [View.set_slice_whole, Rect.mem_set_unit]
  exact Iff.rfl

theorem mem_blk3 (t : Fin cfg1.N) (i : S16x64x128x128.Idx) :
    i ∈ ((cfg1.win 3).blk t).view.set ↔ ∀ a : Fin 4, win1_3.index t a * S1x64x128x128.size a ≤ (i a).val
      ∧ (i a).val < win1_3.index t a * S1x64x128x128.size a + S1x64x128x128.size a := by
  show i ∈ ((View.whole main_v33_1).slice (win1_3.rect t)).set ↔ _
  rw [View.set_slice_whole, Rect.mem_set_unit]
  exact Iff.rfl

/-- The point that covers an index: its batch coordinate. -/
def ptOf (i : S16x64x128x128.Idx) : Fin cfg1.N :=
  ⟨(i 0).val, lt_of_lt_of_eq (i 0).isLt (N_1 : cfg1.N = 16).symm⟩

/-- Every element of the first result is in the block of the point named by its batch coordinate. -/
theorem cover2 (i : S16x64x128x128.Idx) :
    ∃ t : Fin cfg1.N, (cfg1.win 2).flush t = true ∧ i ∈ ((cfg1.win 2).blk t).view.set := by
  have h1 : (i 1).val < 64 := (i 1).isLt
  have h2 : (i 2).val < 128 := (i 2).isLt
  have h3 : (i 3).val < 128 := (i 3).isLt
  refine ⟨ptOf i, flush1_2 _, ?_⟩
  rw [mem_blk2]
  obtain ⟨-, -, -, -, -, -, -, e0, e1, e2, e3, -⟩ := idx_facts (ptOf i)
  have e0' : win1_2.index (ptOf i) (0 : Fin 4) = (i 0).val := e0
  intro a
  match a with
  | ⟨0, _⟩ => show win1_2.index (ptOf i) (0 : Fin 4) * 1 ≤ (i 0).val ∧ (i 0).val < win1_2.index (ptOf i) (0 : Fin 4) * 1 + 1; omega
  | ⟨1, _⟩ => show win1_2.index (ptOf i) (1 : Fin 4) * 64 ≤ (i 1).val ∧ (i 1).val < win1_2.index (ptOf i) (1 : Fin 4) * 64 + 64; omega
  | ⟨2, _⟩ => show win1_2.index (ptOf i) (2 : Fin 4) * 128 ≤ (i 2).val ∧ (i 2).val < win1_2.index (ptOf i) (2 : Fin 4) * 128 + 128; omega
  | ⟨3, _⟩ => show win1_2.index (ptOf i) (3 : Fin 4) * 128 ≤ (i 3).val ∧ (i 3).val < win1_2.index (ptOf i) (3 : Fin 4) * 128 + 128; omega

theorem cover3 (i : S16x64x128x128.Idx) :
    ∃ t : Fin cfg1.N, (cfg1.win 3).flush t = true ∧ i ∈ ((cfg1.win 3).blk t).view.set := by
  have h1 : (i 1).val < 64 := (i 1).isLt
  have h2 : (i 2).val < 128 := (i 2).isLt
  have h3 : (i 3).val < 128 := (i 3).isLt
  refine ⟨ptOf i, flush1_3 _, ?_⟩
  rw [mem_blk3]
  obtain ⟨-, -, -, -, -, -, -, -, -, -, -, e0, e1, e2, e3⟩ := idx_facts (ptOf i)
  have e0' : win1_3.index (ptOf i) (0 : Fin 4) = (i 0).val := e0
  intro a
  match a with
  | ⟨0, _⟩ => show win1_3.index (ptOf i) (0 : Fin 4) * 1 ≤ (i 0).val ∧ (i 0).val < win1_3.index (ptOf i) (0 : Fin 4) * 1 + 1; omega
  | ⟨1, _⟩ => show win1_3.index (ptOf i) (1 : Fin 4) * 64 ≤ (i 1).val ∧ (i 1).val < win1_3.index (ptOf i) (1 : Fin 4) * 64 + 64; omega
  | ⟨2, _⟩ => show win1_3.index (ptOf i) (2 : Fin 4) * 128 ≤ (i 2).val ∧ (i 2).val < win1_3.index (ptOf i) (2 : Fin 4) * 128 + 128; omega
  | ⟨3, _⟩ => show win1_3.index (ptOf i) (3 : Fin 4) * 128 ≤ (i 3).val ∧ (i 3).val < win1_3.index (ptOf i) (3 : Fin 4) * 128 + 128; omega

/-- The first result array after the second kernel: the low-pass array of the image and weights it found. -/
theorem low_array (hB : LowBody) (c : Dev nD) :
    (dat1 V c).arrAt 2 cfg1.N = Cert.Spec.low (V c main_arg0) (V c main_v32) :=
  (dat1 V c).arrAt_eq_of_cover 2 _ (fun t _ => flushed2_eq V hB c t) cover2

/-- The second result array after the second kernel: the residual array. -/
theorem resid_array (hB : ResidBody) (c : Dev nD) :
    (dat1 V c).arrAt 3 cfg1.N = Cert.Spec.resid (V c main_arg0) (V c main_v32) :=
  (dat1 V c).arrAt_eq_of_cover 3 _ (fun t _ => flushed3_eq V hB c t) cover3

end Cert.KernelIdeal.ConvArr

end
-- ==== Proof.KRun.lean ====
/-
  The idealized kernel's run, with its two results named.

  Reading the program from the end: the second kernel leaves, in the two result arrays, the low-pass array and the
  residual array of the image and the weight array it finds.  The image it finds is the argument (nothing before it
  writes that array).  The weight array it finds is what the host operations between the kernels compute from the
  first kernel's result, cast from [16, 1, 64] to [16, 64], and from the five small arguments; and the first kernel's
  result is the array of plane means of the argument.
-/
import proofs.«177280_j19877108645998_1_alg».proof.Proof.KFrame
import proofs.«177280_j19877108645998_1_alg».proof.Proof.KPool
import proofs.«177280_j19877108645998_1_alg».proof.Proof.KGlue
import proofs.«177280_j19877108645998_1_alg».proof.Proof.KConvArr

set_option maxRecDepth 16384

noncomputable section

namespace Cert.KernelIdeal.Run

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The weight array the kernel's program computes from the image and the five small arguments. -/
def weightsK (x : S16x64x128x128.Idx → EReal) (a1 : FVec Ideal S72x64 .f32) (a2 a3 a4 a5 : FVec Ideal S72 .f32) :
    S16x64x9.Idx → EReal :=
  Glue.glueK (shapeCast S16x64 (Pool.meansK x) shapeCasts_S16x1x64_S16x64) a1 a2 a3 a4 a5

/-- After the first kernel the image array is still the argument. -/
theorem W1_image (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl

/-- When the second kernel starts the image array is still the argument. -/
theorem V2_image (c : Dev nD) : V2 m ρ c main_arg0 = m ((c : Thread nD τ).loc main_arg0) :=
  (Glue.image_kept (W1 m ρ c)).trans (W1_image m ρ c)

/-- After the first kernel its result array holds the plane means of the argument. -/
theorem W1_means (c : Dev nD) :
    (W1 m ρ c (Proc.devRef .tc main_v0) : S16x1x64.Idx → EReal) = Pool.meansK (m ((c : Thread nD τ).loc main_arg0)) :=
  (W1_arr m ρ c 1).trans (Pool.means_array (V0 m ρ) c)

/-- When the second kernel starts the weight array holds `weightsK` of the arguments. -/
theorem V2_weights (c : Dev nD) :
    (V2 m ρ c main_v32 : S16x64x9.Idx → EReal)
      = weightsK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (Glue.weights_read (W1 m ρ c)).trans ?_
  rw [W1_means m ρ c, W1_of_ne m ρ c main_arg1 (by decide), W1_of_ne m ρ c main_arg2 (by decide),
    W1_of_ne m ρ c main_arg3 (by decide), W1_of_ne m ρ c main_arg4 (by decide), W1_of_ne m ρ c main_arg5 (by decide)]
  rfl

/-- The first result array at the end of the program. -/
theorem low_result (hB : ConvArr.LowBody) (c : Dev nD) :
    (W3 m ρ c (Proc.devRef .tc main_v33_0) : S16x64x128x128.Idx → EReal)
      = Cert.Spec.low (m ((c : Thread nD τ).loc main_arg0))
          (weightsK (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))) := by
  refine ((W3_arr m ρ c 2).trans (ConvArr.low_array (V2 m ρ) hB c)).trans ?_
  rw [V2_image m ρ c, V2_weights m ρ c]

/-- The second result array at the end of the program. -/
theorem resid_result (hB : ConvArr.ResidBody) (c : Dev nD) :
    (W3 m ρ c (Proc.devRef .tc main_v33_1) : S16x64x128x128.Idx → EReal)
      = Cert.Spec.resid (m ((c : Thread nD τ).loc main_arg0))
          (weightsK (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))) := by
  refine ((W3_arr m ρ c 3).trans (ConvArr.resid_array (V2 m ρ) hB c)).trans ?_
  rw [V2_image m ρ c, V2_weights m ρ c]

/-- Every weakly fair execution of the idealized kernel's program terminates with the two result arrays at the
    specification's functions of the arguments, and the arguments unchanged. -/
theorem run (hB2 : ConvArr.LowBody) (hB3 : ConvArr.ResidBody) :
    θ_run (defs (F := Ideal)) (onTc (τ := τ) (main (F := Ideal))) ⟨m, fun _ => 0, ρ⟩ (fun r => ∀ c : Dev nD,
      r.2.mem ((c.tc : Thread nD τ).loc main_v33_0)
        = Cert.Spec.low (m ((c : Thread nD τ).loc main_arg0))
            (weightsK (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5)))
      ∧ r.2.mem ((c.tc : Thread nD τ).loc main_v33_1)
        = Cert.Spec.resid (m ((c : Thread nD τ).loc main_arg0))
            (weightsK (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun r h c => ⟨(h c).1.trans (low_result m ρ hB2 c), (h c).2.1.trans (resid_result m ρ hB3 c), (h c).2.2⟩)
    (Cert.KernelIdeal.GenP.frame_results m ρ)

end Cert.KernelIdeal.Run

end
-- ==== Proof.ConvPad.lean ====
/-
  The reflection-padded array of the convolution kernel, read at an index.

  The kernel pads one batch element's block [64, 128, 128] to [64, 130, 130] in two steps: along the rows it puts
  row 1 in front and row 126 behind (a concatenation of three pieces along axis 1), then along the columns it puts
  column 1 in front and column 126 behind (three pieces along axis 2).  Read at padded coordinates (a, b) the result
  is the block at (refl a, refl b), where refl 0 = 1, refl 129 = 126 and refl a = a - 1 in between.
-/
import proofs.«177280_j19877108645998_1_alg».proof.Proof.Gen.KernelIdeal.Skeleton
import proofs.«177280_j19877108645998_1_alg».proof.Proof.Spec
import Idealize.ShloMosaic.Lib.ValueLayout

noncomputable section

namespace Cert.KernelIdeal.ConvBody

open Cert.KernelIdeal Cert.KernelIdeal.Gen Idealize.ShloMosaic Idealize.ShloMosaic.ValueIdx

variable {α : Type}

/-- The three pieces laid along the rows: row 1, the 128 rows, row 126. -/
abbrev rowPieces (X : S64x128x128.Idx → α) : List ((s : Shape) × (s.Idx → α)) :=
  [⟨S64x1x128, extractStridedSlice S64x1x128 ![0, 1, 0] X slices_S64x128x128_o0_1_0_S64x1x128⟩,
   ⟨S64x128x128, X⟩,
   ⟨S64x1x128, extractStridedSlice S64x1x128 ![0, 126, 0] X slices_S64x128x128_o0_126_0_S64x1x128⟩]

/-- The rows padded by reflection. -/
def rowPad (X : S64x128x128.Idx → α) : S64x130x128.Idx → α :=
  concatenate S64x130x128 1 (rowPieces X) concatenates_S64x1x128_S64x128x128_S64x1x128_S64x130x128_d1

/-- The three pieces laid along the columns: column 1, the 128 columns, column 126. -/
abbrev colPieces (Y : S64x130x128.Idx → α) : List ((s : Shape) × (s.Idx → α)) :=
  [⟨S64x130x1, extractStridedSlice S64x130x1 ![0, 0, 1] Y slices_S64x130x128_o0_0_1_S64x130x1⟩,
   ⟨S64x130x128, Y⟩,
   ⟨S64x130x1, extractStridedSlice S64x130x1 ![0, 0, 126] Y slices_S64x130x128_o0_0_126_S64x130x1⟩]

/-- The columns padded by reflection. -/
def colPad (Y : S64x130x128.Idx → α) : S64x130x130.Idx → α :=
  concatenate S64x130x130 2 (colPieces Y) concatenates_S64x130x1_S64x130x128_S64x130x1_S64x130x130_d2

/-- Padded row `a` reads source row `refl a`. -/
theorem rowPad_apply (X : S64x128x128.Idx → α) (c : Fin 64) (a : Fin 130) (w : Fin 128) (r : Fin 128)
    (hr : r.val = Cert.Spec.refl a.val) :
    rowPad X (ix3 c a w) = X (ix3 c r w) := by
  unfold Cert.Spec.refl at hr
  unfold rowPad
  by_cases h0 : a.val = 0
  · rw [if_pos h0] at hr
    refine (concatenate_apply_piece (1 : Fin 3) (rowPieces X) _ (ix3 c a w) 0 (by show (0 : Nat) < 3; decide) S64x1x128 _ rfl rfl 0 rfl
      (ix3 c (0 : Fin 1) w) (fun b hb => ?_) ?_).trans ?_
    · match b with
      | ⟨0, _⟩ => rfl
      | ⟨1, _⟩ => exact absurd rfl hb
      | ⟨2, _⟩ => rfl
    · show 0 + 0 = a.val
      omega
    · exact slice3_axis1_apply 1 X _ c (0 : Fin 1) w r (by rw [hr]; rfl)
  · rw [if_neg h0] at hr
    by_cases h1 : a.val = 129
    · rw [if_pos h1] at hr
      refine (concatenate_apply_piece (1 : Fin 3) (rowPieces X) _ (ix3 c a w) 2 (by show (2 : Nat) < 3; decide) S64x1x128 _ rfl rfl 129 rfl
        (ix3 c (0 : Fin 1) w) (fun b hb => ?_) ?_).trans ?_
      · match b with
        | ⟨0, _⟩ => rfl
        | ⟨1, _⟩ => exact absurd rfl hb
        | ⟨2, _⟩ => rfl
      · show 129 + 0 = a.val
        omega
      · exact slice3_axis1_apply 126 X _ c (0 : Fin 1) w r (by rw [hr]; rfl)
    · rw [if_neg h1] at hr
      refine concatenate_apply_piece (1 : Fin 3) (rowPieces X) _ (ix3 c a w) 1 (by show (1 : Nat) < 3; decide) S64x128x128 X rfl rfl 1 rfl
        (ix3 c r w) (fun b hb => ?_) ?_
      · match b with
        | ⟨0, _⟩ => rfl
        | ⟨1, _⟩ => exact absurd rfl hb
        | ⟨2, _⟩ => rfl
      · show 1 + r.val = a.val
        omega

/-- Padded column `b` reads source column `refl b`. -/
theorem colPad_apply (Y : S64x130x128.Idx → α) (c : Fin 64) (a b : Fin 130) (r : Fin 128)
    (hr : r.val = Cert.Spec.refl b.val) :
    colPad Y (ix3 c a b) = Y (ix3 c a r) := by
  unfold Cert.Spec.refl at hr
  unfold colPad
  by_cases h0 : b.val = 0
  · rw [if_pos h0] at hr
    refine (concatenate_apply_piece (2 : Fin 3) (colPieces Y) _ (ix3 c a b) 0 (by show (0 : Nat) < 3; decide) S64x130x1 _ rfl rfl 0 rfl
      (ix3 c a (0 : Fin 1)) (fun d hd => ?_) ?_).trans ?_
    · match d with
      | ⟨0, _⟩ => rfl
      | ⟨1, _⟩ => rfl
      | ⟨2, _⟩ => exact absurd rfl hd
    · show 0 + 0 = b.val
      omega
    · exact extractStridedSlice_apply _ Y _ (ix3 c a (0 : Fin 1)) (ix3 c a r) (fun ax => by
        match ax with
        | ⟨0, _⟩ => exact (Nat.zero_add _).symm
        | ⟨1, _⟩ => exact (Nat.zero_add _).symm
        | ⟨2, _⟩ => exact hr)
  · rw [if_neg h0] at hr
    by_cases h1 : b.val = 129
    · rw [if_pos h1] at hr
      refine (concatenate_apply_piece (2 : Fin 3) (colPieces Y) _ (ix3 c a b) 2 (by show (2 : Nat) < 3; decide) S64x130x1 _ rfl rfl 129 rfl
        (ix3 c a (0 : Fin 1)) (fun d hd => ?_) ?_).trans ?_
      · match d with
        | ⟨0, _⟩ => rfl
        | ⟨1, _⟩ => rfl
        | ⟨2, _⟩ => exact absurd rfl hd
      · show 129 + 0 = b.val
        omega
      · exact extractStridedSlice_apply _ Y _ (ix3 c a (0 : Fin 1)) (ix3 c a r) (fun ax => by
          match ax with
          | ⟨0, _⟩ => exact (Nat.zero_add _).symm
          | ⟨1, _⟩ => exact (Nat.zero_add _).symm
          | ⟨2, _⟩ => exact hr)
    · rw [if_neg h1] at hr
      refine concatenate_apply_piece (2 : Fin 3) (colPieces Y) _ (ix3 c a b) 1 (by show (1 : Nat) < 3; decide) S64x130x128 Y rfl rfl 1 rfl
        (ix3 c a r) (fun d hd => ?_) ?_
      · match d with
        | ⟨0, _⟩ => rfl
        | ⟨1, _⟩ => rfl
        | ⟨2, _⟩ => exact absurd rfl hd
      · show 1 + r.val = b.val
        omega

/-- The kernel's padded array is the two paddings of the block with its unit axis dropped. -/
theorem k1_pay6_eq (x0 : Vec Ideal S1x64x128x128 .f32) :
    k1_pay6 (F := Ideal) x0 = colPad (rowPad (k1_pay4 (F := Ideal) x0)) := rfl

/-- **The padded array at an index**: padded coordinates (a, b) read the block at (refl a, refl b). -/
theorem pad_apply (x0 : Vec Ideal S1x64x128x128 .f32) (c : Fin 64) (a b : Fin 130) (ra rb : Fin 128)
    (ha : ra.val = Cert.Spec.refl a.val) (hb : rb.val = Cert.Spec.refl b.val) :
    k1_pay6 (F := Ideal) x0 (ix3 c a b) = x0 (ix4 (0 : Fin 1) c ra rb) := by
  refine (congrFun (k1_pay6_eq x0) _).trans ?_
  refine (colPad_apply _ c a b rb hb).trans ?_
  refine (rowPad_apply _ c a rb ra ha).trans ?_
  unfold k1_pay4
  exact shapeCast_1abc_abc_apply x0 _ c ra rb

end Cert.KernelIdeal.ConvBody

end
-- ==== Proof.ConvTaps.lean ====
/-
  One tap of the 3 × 3 window and the accumulated sum of the nine taps, read at an index.

  Tap (i, j) is the padded array shifted by (i, j) times weight column k = 3 i + j spread over the plane; at pixel
  (h, w) of channel c it is the block at (refl (h + i), refl (w + j)) times the channel's weight k.
-/
import proofs.«177280_j19877108645998_1_alg».proof.Proof.ConvPad

noncomputable section

namespace Cert.KernelIdeal.ConvBody

open Cert.KernelIdeal Cert.KernelIdeal.Gen Idealize.ShloMosaic Idealize.ShloMosaic.ValueIdx

variable {α : Type}

/-- A window of the padded array shifted by (i, j), at (c, h, w), is the padded array at (c, i + h, j + w). -/
theorem shift_apply (P : S64x130x130.Idx → α) (i j : Nat) (hs : S64x130x130.Slices ![0, i, j] S64x128x128)
    (c : Fin 64) (h w : Fin 128) (a b : Fin 130) (ha : a.val = i + h.val) (hb : b.val = j + w.val) :
    extractStridedSlice S64x128x128 ![0, i, j] P hs (ix3 c h w) = P (ix3 c a b) :=
  extractStridedSlice_apply _ P hs (ix3 c h w) (ix3 c a b) (fun ax => by
    match ax with
    | ⟨0, _⟩ => exact (Nat.zero_add _).symm
    | ⟨1, _⟩ => exact ha
    | ⟨2, _⟩ => exact hb)

/-- Weight column k of a [64, 9] table spread over the [64, 128, 128] plane, at (c, h, w), is the table at (c, k). -/
theorem wcol_apply (W : S64x9.Idx → α) (k : Nat) (hs : S64x9.Slices ![0, k] S64x1) (c : Fin 64) (h w : Fin 128)
    (kk : Fin 9) (hkk : kk.val = k) :
    broadcastTo S64x128x128
      (shapeCast S64x1x1 (shapeCast S64 (extractStridedSlice S64x1 ![0, k] W hs) shapeCasts_S64x1_S64) shapeCasts_S64_S64x1x1)
      broadcasts_S64x1x1_S64x128x128 (ix3 c h w) = W (ix2 c kk) := by
  refine (broadcastTo_apply _ _ (ix3 c h w) (ix3 c (0 : Fin 1) (0 : Fin 1)) (fun ax => ?_)).trans ?_
  · match ax with
    | ⟨0, _⟩ => rfl
    | ⟨1, _⟩ => rfl
    | ⟨2, _⟩ => rfl
  refine (shapeCast_apply _ _ (ix3 c (0 : Fin 1) (0 : Fin 1)) (ix1 c) (by
    rw [Shape.rowMajor_val_three, Shape.rowMajor_val_one]
    show c.val = (c.val * 1 + 0) * 1 + 0
    omega)).trans ?_
  refine (shapeCast_apply _ _ (ix1 c) (ix2 c (0 : Fin 1)) (by
    rw [Shape.rowMajor_val_two, Shape.rowMajor_val_one]
    show c.val * 1 + 0 = c.val
    omega)).trans ?_
  exact slice2_axis1_apply k W hs c (0 : Fin 1) kk (by rw [hkk]; rfl)

/-- The weight table with its unit axis dropped, at (c, k), is the block at (0, c, k). -/
theorem k1_pay5_apply (x1 : Vec Ideal S1x64x9 .f32) (c : Fin 64) (k : Fin 9) :
    k1_pay5 (F := Ideal) x1 (ix2 c k) = x1 (ix3 (0 : Fin 1) c k) := by
  unfold k1_pay5
  exact shapeCast_1ab_ab_apply x1 _ c k

/-- **One tap at an index.** -/
theorem tapTerm_apply (x0 : Vec Ideal S1x64x128x128 .f32) (x1 : Vec Ideal S1x64x9 .f32)
    (i j k : Nat) (hi : i < 3) (hj : j < 3) (hk : k < 9)
    (hs : S64x130x130.Slices ![0, i, j] S64x128x128) (hw : S64x9.Slices ![0, k] S64x1)
    (c : Fin 64) (h w : Fin 128) :
    mulf (extractStridedSlice S64x128x128 ![0, i, j] (k1_pay6 (F := Ideal) x0) hs)
        (broadcastTo S64x128x128
          (shapeCast S64x1x1 (shapeCast S64 (extractStridedSlice S64x1 ![0, k] (k1_pay5 (F := Ideal) x1) hw) shapeCasts_S64x1_S64)
            shapeCasts_S64_S64x1x1)
          broadcasts_S64x1x1_S64x128x128) (ix3 c h w)
      = Cert.Spec.tap (fun h w => x0 (ix4 (0 : Fin 1) c h w)) (fun k => x1 (ix3 (0 : Fin 1) c k)) h w i j k hi hj hk := by
  have hA := (shift_apply (k1_pay6 (F := Ideal) x0) i j hs c h w
      ⟨h.val + i, by have := h.isLt; omega⟩ ⟨w.val + j, by have := w.isLt; omega⟩
      (Nat.add_comm _ _) (Nat.add_comm _ _)).trans
    (pad_apply x0 c _ _ ⟨Cert.Spec.refl (h.val + i), Cert.Spec.refl_lt _ (by have := h.isLt; omega)⟩
      ⟨Cert.Spec.refl (w.val + j), Cert.Spec.refl_lt _ (by have := w.isLt; omega)⟩ rfl rfl)
  have hB := (wcol_apply (k1_pay5 (F := Ideal) x1) k hw c h w ⟨k, hk⟩ rfl).trans (k1_pay5_apply x1 c ⟨k, hk⟩)
  exact congrArg₂ (· * ·) hA hB

end Cert.KernelIdeal.ConvBody

end
-- ==== Proof.ConvBody.lean ====
/-
  What the convolution kernel's body leaves in its two output blocks, read at an index: the low-pass value of the
  channel's plane (nine taps of the reflection-padded plane, added from the left onto zero) and the plane minus it.
-/
import proofs.«177280_j19877108645998_1_alg».proof.Proof.ConvTaps
import proofs.«177280_j19877108645998_1_alg».proof.Proof.Gen.KernelIdeal.Frame

noncomputable section

namespace Cert.KernelIdeal.ConvBody

open Cert.KernelIdeal Cert.KernelIdeal.Gen Idealize.ShloMosaic Idealize.ShloMosaic.ValueIdx

/-- Adding one tap (a product of two arrays) to an accumulated array, at an index. -/
theorem acc_step (A T U : FVec Ideal S64x128x128 .f32) (i : S64x128x128.Idx) (a t : EReal)
    (hA : A i = a) (hT : mulf T U i = t) : addf A (mulf T U) i = a + t := by
  subst hA; subst hT; rfl

/-- The first five taps accumulated onto zero. -/
theorem k1_pay7_apply (x0 : Vec Ideal S1x64x128x128 .f32) (x1 : Vec Ideal S1x64x9 .f32) (c : Fin 64) (h w : Fin 128) :
    k1_pay7 (F := Ideal) x0 x1 (ix3 c h w)
      = ((((Ideal.ofBits .f32 0x00000000#32
        + Cert.Spec.tap (fun h w => x0 (ix4 (0 : Fin 1) c h w)) (fun k => x1 (ix3 (0 : Fin 1) c k)) h w 0 0 0 (by omega) (by omega) (by omega))
        + Cert.Spec.tap (fun h w => x0 (ix4 (0 : Fin 1) c h w)) (fun k => x1 (ix3 (0 : Fin 1) c k)) h w 0 1 1 (by omega) (by omega) (by omega))
        + Cert.Spec.tap (fun h w => x0 (ix4 (0 : Fin 1) c h w)) (fun k => x1 (ix3 (0 : Fin 1) c k)) h w 0 2 2 (by omega) (by omega) (by omega))
        + Cert.Spec.tap (fun h w => x0 (ix4 (0 : Fin 1) c h w)) (fun k => x1 (ix3 (0 : Fin 1) c k)) h w 1 0 3 (by omega) (by omega) (by omega))
        + Cert.Spec.tap (fun h w => x0 (ix4 (0 : Fin 1) c h w)) (fun k => x1 (ix3 (0 : Fin 1) c k)) h w 1 1 4 (by omega) (by omega) (by omega) := by
  unfold k1_pay7
  refine acc_step _ _ _ _ _ _ ?_ (tapTerm_apply x0 x1 1 1 4 _ _ _ _ _ c h w)
  refine acc_step _ _ _ _ _ _ ?_ (tapTerm_apply x0 x1 1 0 3 _ _ _ _ _ c h w)
  refine acc_step _ _ _ _ _ _ ?_ (tapTerm_apply x0 x1 0 2 2 _ _ _ _ _ c h w)
  refine acc_step _ _ _ _ _ _ ?_ (tapTerm_apply x0 x1 0 1 1 _ _ _ _ _ c h w)
  refine acc_step _ _ _ _ _ _ ?_ (tapTerm_apply x0 x1 0 0 0 _ _ _ _ _ c h w)
  rfl

/-- All nine taps accumulated onto zero: the low-pass value. -/
theorem k1_pay1_apply (x0 : Vec Ideal S1x64x128x128 .f32) (x1 : Vec Ideal S1x64x9 .f32) (c : Fin 64) (h w : Fin 128) :
    k1_pay1 (F := Ideal) (k1_pay5 x1) (k1_pay6 x0) (k1_pay7 x0 x1) (k1_pay8 x0) (k1_pay9 x1) (ix3 c h w)
      = Cert.Spec.lowC (fun h w => x0 (ix4 (0 : Fin 1) c h w)) (fun k => x1 (ix3 (0 : Fin 1) c k)) h w := by
  unfold k1_pay1 Cert.Spec.lowC
  refine acc_step _ _ _ _ _ _ ?_ (tapTerm_apply x0 x1 2 2 8 _ _ _ _ _ c h w)
  refine acc_step _ _ _ _ _ _ ?_ (tapTerm_apply x0 x1 2 1 7 _ _ _ _ _ c h w)
  refine acc_step _ _ _ _ _ _ ?_ (tapTerm_apply x0 x1 2 0 6 _ _ _ _ _ c h w)
  refine acc_step _ _ _ _ _ _ (k1_pay7_apply x0 x1 c h w) ?_
  unfold k1_pay8 k1_pay9
  exact tapTerm_apply x0 x1 1 2 5 _ _ _ _ _ c h w

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- **The first output block at an index** is the low-pass value of that channel's plane. -/
theorem out1_2_apply (x0 : Vec Ideal S1x64x128x128 .f32) (x1 : Vec Ideal S1x64x9 .f32) (c : Fin 64) (h w : Fin 128) :
    Gen.out1_2 (F := Ideal) x0 x1 (ix4 (0 : Fin 1) c h w)
      = Cert.Spec.lowC (fun h w => x0 (ix4 (0 : Fin 1) c h w)) (fun k => x1 (ix3 (0 : Fin 1) c k)) h w := by
  unfold Gen.out1_2
  rw [View.canon_unit_zero hz4]
  simp only [View.ld_unit_zero (S := S1x64x128x128) hz4, View.ld_unit_zero (S := S1x64x9) hz3]
  unfold k1_pay2
  refine (shapeCast_abc_1abc_apply _ _ (0 : Fin 1) c h w).trans ?_
  exact k1_pay1_apply x0 x1 c h w

/-- **The second output block at an index** is the plane minus its low-pass value. -/
theorem out1_3_apply (x0 : Vec Ideal S1x64x128x128 .f32) (x1 : Vec Ideal S1x64x9 .f32) (c : Fin 64) (h w : Fin 128) :
    Gen.out1_3 (F := Ideal) x0 x1 (ix4 (0 : Fin 1) c h w)
      = x0 (ix4 (0 : Fin 1) c h w)
        - Cert.Spec.lowC (fun h w => x0 (ix4 (0 : Fin 1) c h w)) (fun k => x1 (ix3 (0 : Fin 1) c k)) h w := by
  unfold Gen.out1_3
  rw [View.canon_unit_zero hz4]
  simp only [View.ld_unit_zero (S := S1x64x128x128) hz4, View.ld_unit_zero (S := S1x64x9) hz3]
  unfold k1_pay3
  refine (shapeCast_abc_1abc_apply _ _ (0 : Fin 1) c h w).trans ?_
  refine congrArg₂ (· - ·) ?_ (k1_pay1_apply x0 x1 c h w)
  unfold k1_pay4
  exact shapeCast_1abc_abc_apply x0 _ c h w

end Cert.KernelIdeal.ConvBody

end
-- ==== Proof.RefRun.lean ====
/-
  The reference program's @main as one line of host operations, and its run.

  @main calls the padding function once, and the padding function calls the two axis-reversal functions four times;
  unfolding each call at its site (the callee's operations over that call's own buffers) leaves one straight line of
  123 operations. Every weakly fair execution of @main then terminates, and each buffer ends at the fold of the
  operations' results over the launch contents.
-/
import proofs.«177280_j19877108645998_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 123 operations in order, the calls unfolded: the means (5), the weights (35), the integer zero and the
    padding function's sixteen (each reversal one operation into its own call's buffer), the zero array (2), nine
    taps of seven operations each, and the residual. -/
abbrev ops : List (HloOp τ sig (Elt F)) :=
  [ StableHlo.nullary main_cst (constant S_ .f32 0x00000000#32),
    StableHlo.binary main_arg0 main_cst main_v0 ((fun x v => Host.reduceAdd x v reducesTo_S16x64x128x128_S16x64_d2_3 h_S_) : (⟨S16x64x128x128, .f32⟩ : BufTy).Contents (Elt F) → (⟨S_, .f32⟩ : BufTy).Contents (Elt F) → (⟨S16x64, .f32⟩ : BufTy).Contents (Elt F)),
    StableHlo.nullary main_cst_0 (constant S_ .f32 0x46800000#32),
    StableHlo.unary main_cst_0 main_v1 (broadcastInDim S16x64 ![] bcast_S_S16x64 : (⟨S_, .f32⟩ : BufTy).Contents (Elt F) → (⟨S16x64, .f32⟩ : BufTy).Contents (Elt F)),
    StableHlo.binary main_v0 main_v1 main_v2 (Host.divf : (⟨S16x64, .f32⟩ : BufTy).Contents (Elt F) → (⟨S16x64, .f32⟩ : BufTy).Contents (Elt F) → (⟨S16x64, .f32⟩ : BufTy).Contents (Elt F)),
    StableHlo.unary main_arg1 main_v3 ((transpose S64x72 [1, 0] · transposes_S72x64_S64x72_1_0) : (⟨S72x64, .f32⟩ : BufTy).Contents (Elt F) → (⟨S64x72, .f32⟩ : BufTy).Contents (Elt F)),
    StableHlo.binary main_v2 main_v3 main_v4 ((fun l r => Host.dotGeneral dot_S16x64_S64x72_S16x72_1_0_0_1_n_n none l r) : (⟨S16x64, .f32⟩ : BufTy).Contents (Elt F) → (⟨S64x72, .f32⟩ : BufTy).Contents (Elt F) → (⟨S16x72, .f32⟩ : BufTy).Contents (Elt F)),
    StableHlo.unary main_arg4 main_v5 (broadcastInDim S1x72 ![1] bcast_S72_S1x72_1 : (⟨S72, .f32⟩ : BufTy).Contents (Elt F) → (⟨S1x72, .f32⟩ : BufTy).Contents (Elt F)),
    StableHlo.unary main_v5 main_v6 (broadcastInDim S16x72 ![0, 1] bcast_S1x72_S16x72_0_1 : (⟨S1x72, .f32⟩ : BufTy).Contents (Elt F) → (⟨S16x72, .f32⟩ : BufTy).Contents (Elt F)),
    StableHlo.binary main_v4 main_v6 main_v7 (subf : (⟨S16x72, .f32⟩ : BufTy).Contents (Elt F) → (⟨S16x72, .f32⟩ : BufTy).Contents (Elt F) → (⟨S16x72, .f32⟩ : BufTy).Contents (Elt F)),
    StableHlo.unary main_arg2 main_v8 (broadcastInDim S1x72 ![1] bcast_S72_S1x72_1 : (⟨S72, .f32⟩ : BufTy).Contents (Elt F) → (⟨S1x72, .f32⟩ : BufTy).Contents (Elt F)),
    StableHlo.unary main_v8 main_v9 (broadcastInDim S16x72 ![0, 1] bcast_S1x72_S16x72_0_1 : (⟨S1x72, .f32⟩ : BufTy).Contents (Elt F) → (⟨S16x72, .f32⟩ : BufTy).Contents (Elt F)),
    StableHlo.binary main_v9 main_v7 main_v10 (mulf : (⟨S16x72, .f32⟩ : BufTy).Contents (Elt F) → (⟨S16x72, .f32⟩ : BufTy).Contents (Elt F) → (⟨S16x72, .f32⟩ : BufTy).Contents (Elt F)),
    StableHlo.nullary main_cst_1 (constant S_ .f32 0x3727C5AC#32),
    StableHlo.unary main_cst_1 main_v11 (broadcastInDim S72 ![] bcast_S_S72 : (⟨S_, .f32⟩ : BufTy).Contents (Elt F) → (⟨S72, .f32⟩ : BufTy).Contents (Elt F)),
    StableHlo.binary main_arg5 main_v11 main_v12 (addf : (⟨S72, .f32⟩ : BufTy).Contents (Elt F) → (⟨S72, .f32⟩ : BufTy).Contents (Elt F) → (⟨S72, .f32⟩ : BufTy).Contents (Elt F)),
    StableHlo.unary main_v12 main_v13 (Host.rsqrt : (⟨S72, .f32⟩ : BufTy).Contents (Elt F) → (⟨S72, .f32⟩ : BufTy).Contents (Elt F)),
    StableHlo.unary main_v13 main_v14 (broadcastInDim S1x72 ![1] bcast_S72_S1x72_1 : (⟨S72, .f32⟩ : BufTy).Contents (Elt F) → (⟨S1x72, .f32⟩ : BufTy).Contents (Elt F)),
    StableHlo.unary main_v14 main_v15 (broadcastInDim S16x72 ![0, 1] bcast_S1x72_S16x72_0_1 : (⟨S1x72, .f32⟩ : BufTy).Contents (Elt F) → (⟨S16x72, .f32⟩ : BufTy).Contents (Elt F)),
    StableHlo.binary main_v10 main_v15 main_v16 (mulf : (⟨S16x72, .f32⟩ : BufTy).Contents (Elt F) → (⟨S16x72, .f32⟩ : BufTy).Contents (Elt F) → (⟨S16x72, .f32⟩ : BufTy).Contents (Elt F)),
    StableHlo.unary main_arg3 main_v17 (broadcastInDim S1x72 ![1] bcast_S72_S1x72_1 : (⟨S72, .f32⟩ : BufTy).Contents (Elt F) → (⟨S1x72, .f32⟩ : BufTy).Contents (Elt F)),
    StableHlo.unary main_v17 main_v18 (broadcastInDim S16x72 ![0, 1] bcast_S1x72_S16x72_0_1 : (⟨S1x72, .f32⟩ : BufTy).Contents (Elt F) → (⟨S16x72, .f32⟩ : BufTy).Contents (Elt F)),
    StableHlo.binary main_v16 main_v18 main_v19 (addf : (⟨S16x72, .f32⟩ : BufTy).Contents (Elt F) → (⟨S16x72, .f32⟩ : BufTy).Contents (Elt F) → (⟨S16x72, .f32⟩ : BufTy).Contents (Elt F)),
    StableHlo.reshape main_v19 main_v20 rfl shapeCasts_S16x72_S16x8x9,
    StableHlo.nullary main_cst_2 (constant S_ .f32 0xFF800000#32),
    StableHlo.binary main_v20 main_cst_2 main_v21 ((fun x v => Host.reduce FloatOps.maximumf x v reducesTo_S16x8x9_S16x8_d2 h_S_) : (⟨S16x8x9, .f32⟩ : BufTy).Contents (Elt F) → (⟨S_, .f32⟩ : BufTy).Contents (Elt F) → (⟨S16x8, .f32⟩ : BufTy).Contents (Elt F)),
    StableHlo.nullary main_cst_3 (constant S_ .f32 0xFF800000#32),
    StableHlo.unary main_cst_3 main_v22 (broadcastInDim S16x8 ![] bcast_S_S16x8 : (⟨S_, .f32⟩ : BufTy).Contents (Elt F) → (⟨S16x8, .f32⟩ : BufTy).Contents (Elt F)),
    StableHlo.binary main_v22 main_v21 main_v23 (maximumf : (⟨S16x8, .f32⟩ : BufTy).Contents (Elt F) → (⟨S16x8, .f32⟩ : BufTy).Contents (Elt F) → (⟨S16x8, .f32⟩ : BufTy).Contents (Elt F)),
    StableHlo.unary main_v23 main_v24 (broadcastInDim S16x8x1 ![0, 1] bcast_S16x8_S16x8x1_0_1 : (⟨S16x8, .f32⟩ : BufTy).Contents (Elt F) → (⟨S16x8x1, .f32⟩ : BufTy).Contents (Elt F)),
    StableHlo.unary main_v24 main_v25 (broadcastInDim S16x8x9 ![0, 1, 2] bcast_S16x8x1_S16x8x9_0_1_2 : (⟨S16x8x1, .f32⟩ : BufTy).Contents (Elt F) → (⟨S16x8x9, .f32⟩ : BufTy).Contents (Elt F)),
    StableHlo.binary main_v20 main_v25 main_v26 (subf : (⟨S16x8x9, .f32⟩ : BufTy).Contents (Elt F) → (⟨S16x8x9, .f32⟩ : BufTy).Contents (Elt F) → (⟨S16x8x9, .f32⟩ : BufTy).Contents (Elt F)),
    StableHlo.unary main_v26 main_v27 (Host.exp : (⟨S16x8x9, .f32⟩ : BufTy).Contents (Elt F) → (⟨S16x8x9, .f32⟩ : BufTy).Contents (Elt F)),
    StableHlo.nullary main_cst_4 (constant S_ .f32 0x00000000#32),
    StableHlo.binary main_v27 main_cst_4 main_v28 ((fun x v => Host.reduceAdd x v reducesTo_S16x8x9_S16x8_d2 h_S_) : (⟨S16x8x9, .f32⟩ : BufTy).Contents (Elt F) → (⟨S_, .f32⟩ : BufTy).Contents (Elt F) → (⟨S16x8, .f32⟩ : BufTy).Contents (Elt F)),
    StableHlo.unary main_v28 main_v29 (broadcastInDim S16x8x1 ![0, 1] bcast_S16x8_S16x8x1_0_1 : (⟨S16x8, .f32⟩ : BufTy).Contents (Elt F) → (⟨S16x8x1, .f32⟩ : BufTy).Contents (Elt F)),
    StableHlo.unary main_v29 main_v30 (broadcastInDim S16x8x9 ![0, 1, 2] bcast_S16x8x1_S16x8x9_0_1_2 : (⟨S16x8x1, .f32⟩ : BufTy).Contents (Elt F) → (⟨S16x8x9, .f32⟩ : BufTy).Contents (Elt F)),
    StableHlo.binary main_v27 main_v30 main_v31 (Host.divf : (⟨S16x8x9, .f32⟩ : BufTy).Contents (Elt F) → (⟨S16x8x9, .f32⟩ : BufTy).Contents (Elt F) → (⟨S16x8x9, .f32⟩ : BufTy).Contents (Elt F)),
    StableHlo.unary main_v31 main_v32 (broadcastInDim S16x8x8x9 ![0, 1, 3] bcast_S16x8x9_S16x8x8x9_0_1_3 : (⟨S16x8x9, .f32⟩ : BufTy).Contents (Elt F) → (⟨S16x8x8x9, .f32⟩ : BufTy).Contents (Elt F)),
    StableHlo.reshape main_v32 main_v33 rfl shapeCasts_S16x8x8x9_S16x64x9,
    StableHlo.nullary main_c (constantI S_ 32 0#32),
    StableHlo.TRef.unary (.of main_arg0 : TRef sig ⟨S16x64x128x128, .f32⟩) main_call0.v0 (extractStridedSlice S16x64x1x128 ![0, 0, 0, 0] · slices_S16x64x128x128_S16x64x1x128_0_0_0_0),
    StableHlo.TRef.unary (.of main_arg0 : TRef sig ⟨S16x64x128x128, .f32⟩) main_call0.v1 (extractStridedSlice S16x64x1x128 ![0, 0, 1, 0] · slices_S16x64x128x128_S16x64x1x128_0_0_1_0),
    StableHlo.TRef.unary main_call0.v1 main_call0.call0.v0 (Host.reverse [2]),
    StableHlo.TRef.binary main_call0.call0.v0 (.of main_arg0 : TRef sig ⟨S16x64x128x128, .f32⟩) main_call0.v3 (fun a b => concatenate S16x64x129x128 2 [⟨S16x64x1x128, a⟩, ⟨S16x64x128x128, b⟩] concatenates_S16x64x1x128_S16x64x128x128_S16x64x129x128_d2),
    StableHlo.TRef.unary main_call0.v3 main_call0.v4 (extractStridedSlice S16x64x1x128 ![0, 0, 128, 0] · slices_S16x64x129x128_S16x64x1x128_0_0_128_0),
    StableHlo.TRef.unary main_call0.v3 main_call0.v5 (extractStridedSlice S16x64x1x128 ![0, 0, 127, 0] · slices_S16x64x129x128_S16x64x1x128_0_0_127_0),
    StableHlo.TRef.unary main_call0.v5 main_call0.call1.v0 (Host.reverse [2]),
    StableHlo.TRef.binary main_call0.v3 main_call0.call1.v0 main_call0.v7 (fun a b => concatenate S16x64x130x128 2 [⟨S16x64x129x128, a⟩, ⟨S16x64x1x128, b⟩] concatenates_S16x64x129x128_S16x64x1x128_S16x64x130x128_d2),
    StableHlo.TRef.unary main_call0.v7 main_call0.v8 (extractStridedSlice S16x64x130x1 ![0, 0, 0, 0] · slices_S16x64x130x128_S16x64x130x1_0_0_0_0),
    StableHlo.TRef.unary main_call0.v7 main_call0.v9 (extractStridedSlice S16x64x130x1 ![0, 0, 0, 1] · slices_S16x64x130x128_S16x64x130x1_0_0_0_1),
    StableHlo.TRef.unary main_call0.v9 main_call0.call2.v0 (Host.reverse [3]),
    StableHlo.TRef.binary main_call0.call2.v0 main_call0.v7 main_call0.v11 (fun a b => concatenate S16x64x130x129 3 [⟨S16x64x130x1, a⟩, ⟨S16x64x130x128, b⟩] concatenates_S16x64x130x1_S16x64x130x128_S16x64x130x129_d3),
    StableHlo.TRef.unary main_call0.v11 main_call0.v12 (extractStridedSlice S16x64x130x1 ![0, 0, 0, 128] · slices_S16x64x130x129_S16x64x130x1_0_0_0_128),
    StableHlo.TRef.unary main_call0.v11 main_call0.v13 (extractStridedSlice S16x64x130x1 ![0, 0, 0, 127] · slices_S16x64x130x129_S16x64x130x1_0_0_0_127),
    StableHlo.TRef.unary main_call0.v13 main_call0.call3.v0 (Host.reverse [3]),
    StableHlo.TRef.binary main_call0.v11 main_call0.call3.v0 main_call0.v15 (fun a b => concatenate S16x64x130x130 3 [⟨S16x64x130x129, a⟩, ⟨S16x64x130x1, b⟩] concatenates_S16x64x130x129_S16x64x130x1_S16x64x130x130_d3),
    StableHlo.nullary main_cst_5 (constant S_ .f32 0x00000000#32),
    StableHlo.unary main_cst_5 main_v35 (broadcastInDim S16x64x128x128 ![] bcast_S_S16x64x128x128 : (⟨S_, .f32⟩ : BufTy).Contents (Elt F) → (⟨S16x64x128x128, .f32⟩ : BufTy).Contents (Elt F)),
    StableHlo.unary main_v34 main_v36 ((extractStridedSlice S16x64x128x128 ![0, 0, 0, 0] · slices_S16x64x130x130_S16x64x128x128_0_0_0_0) : (⟨S16x64x130x130, .f32⟩ : BufTy).Contents (Elt F) → (⟨S16x64x128x128, .f32⟩ : BufTy).Contents (Elt F)),
    StableHlo.unary main_v33 main_v37 ((extractStridedSlice S16x64x1 ![0, 0, 0] · slices_S16x64x9_S16x64x1_0_0_0) : (⟨S16x64x9, .f32⟩ : BufTy).Contents (Elt F) → (⟨S16x64x1, .f32⟩ : BufTy).Contents (Elt F)),
    StableHlo.reshape main_v37 main_v38 rfl shapeCasts_S16x64x1_S16x64,
    StableHlo.unary main_v38 main_v39 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v39 main_v40 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v36 main_v40 main_v41 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v35 main_v41 main_v42 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v43 ((extractStridedSlice S16x64x128x128 ![0, 0, 0, 1] · slices_S16x64x130x130_S16x64x128x128_0_0_0_1) : (⟨S16x64x130x130, .f32⟩ : BufTy).Contents (Elt F) → (⟨S16x64x128x128, .f32⟩ : BufTy).Contents (Elt F)),
    StableHlo.unary main_v33 main_v44 ((extractStridedSlice S16x64x1 ![0, 0, 1] · slices_S16x64x9_S16x64x1_0_0_1) : (⟨S16x64x9, .f32⟩ : BufTy).Contents (Elt F) → (⟨S16x64x1, .f32⟩ : BufTy).Contents (Elt F)),
    StableHlo.reshape main_v44 main_v45 rfl shapeCasts_S16x64x1_S16x64,
    StableHlo.unary main_v45 main_v46 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v46 main_v47 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v43 main_v47 main_v48 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v42 main_v48 main_v49 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v50 ((extractStridedSlice S16x64x128x128 ![0, 0, 0, 2] · slices_S16x64x130x130_S16x64x128x128_0_0_0_2) : (⟨S16x64x130x130, .f32⟩ : BufTy).Contents (Elt F) → (⟨S16x64x128x128, .f32⟩ : BufTy).Contents (Elt F)),
    StableHlo.unary main_v33 main_v51 ((extractStridedSlice S16x64x1 ![0, 0, 2] · slices_S16x64x9_S16x64x1_0_0_2) : (⟨S16x64x9, .f32⟩ : BufTy).Contents (Elt F) → (⟨S16x64x1, .f32⟩ : BufTy).Contents (Elt F)),
    StableHlo.reshape main_v51 main_v52 rfl shapeCasts_S16x64x1_S16x64,
    StableHlo.unary main_v52 main_v53 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v53 main_v54 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v50 main_v54 main_v55 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v49 main_v55 main_v56 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v57 ((extractStridedSlice S16x64x128x128 ![0, 0, 1, 0] · slices_S16x64x130x130_S16x64x128x128_0_0_1_0) : (⟨S16x64x130x130, .f32⟩ : BufTy).Contents (Elt F) → (⟨S16x64x128x128, .f32⟩ : BufTy).Contents (Elt F)),
    StableHlo.unary main_v33 main_v58 ((extractStridedSlice S16x64x1 ![0, 0, 3] · slices_S16x64x9_S16x64x1_0_0_3) : (⟨S16x64x9, .f32⟩ : BufTy).Contents (Elt F) → (⟨S16x64x1, .f32⟩ : BufTy).Contents (Elt F)),
    StableHlo.reshape main_v58 main_v59 rfl shapeCasts_S16x64x1_S16x64,
    StableHlo.unary main_v59 main_v60 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v60 main_v61 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v57 main_v61 main_v62 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v56 main_v62 main_v63 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v64 ((extractStridedSlice S16x64x128x128 ![0, 0, 1, 1] · slices_S16x64x130x130_S16x64x128x128_0_0_1_1) : (⟨S16x64x130x130, .f32⟩ : BufTy).Contents (Elt F) → (⟨S16x64x128x128, .f32⟩ : BufTy).Contents (Elt F)),
    StableHlo.unary main_v33 main_v65 ((extractStridedSlice S16x64x1 ![0, 0, 4] · slices_S16x64x9_S16x64x1_0_0_4) : (⟨S16x64x9, .f32⟩ : BufTy).Contents (Elt F) → (⟨S16x64x1, .f32⟩ : BufTy).Contents (Elt F)),
    StableHlo.reshape main_v65 main_v66 rfl shapeCasts_S16x64x1_S16x64,
    StableHlo.unary main_v66 main_v67 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v67 main_v68 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v64 main_v68 main_v69 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v63 main_v69 main_v70 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v71 ((extractStridedSlice S16x64x128x128 ![0, 0, 1, 2] · slices_S16x64x130x130_S16x64x128x128_0_0_1_2) : (⟨S16x64x130x130, .f32⟩ : BufTy).Contents (Elt F) → (⟨S16x64x128x128, .f32⟩ : BufTy).Contents (Elt F)),
    StableHlo.unary main_v33 main_v72 ((extractStridedSlice S16x64x1 ![0, 0, 5] · slices_S16x64x9_S16x64x1_0_0_5) : (⟨S16x64x9, .f32⟩ : BufTy).Contents (Elt F) → (⟨S16x64x1, .f32⟩ : BufTy).Contents (Elt F)),
    StableHlo.reshape main_v72 main_v73 rfl shapeCasts_S16x64x1_S16x64,
    StableHlo.unary main_v73 main_v74 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v74 main_v75 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v71 main_v75 main_v76 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v70 main_v76 main_v77 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v78 ((extractStridedSlice S16x64x128x128 ![0, 0, 2, 0] · slices_S16x64x130x130_S16x64x128x128_0_0_2_0) : (⟨S16x64x130x130, .f32⟩ : BufTy).Contents (Elt F) → (⟨S16x64x128x128, .f32⟩ : BufTy).Contents (Elt F)),
    StableHlo.unary main_v33 main_v79 ((extractStridedSlice S16x64x1 ![0, 0, 6] · slices_S16x64x9_S16x64x1_0_0_6) : (⟨S16x64x9, .f32⟩ : BufTy).Contents (Elt F) → (⟨S16x64x1, .f32⟩ : BufTy).Contents (Elt F)),
    StableHlo.reshape main_v79 main_v80 rfl shapeCasts_S16x64x1_S16x64,
    StableHlo.unary main_v80 main_v81 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v81 main_v82 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v78 main_v82 main_v83 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v77 main_v83 main_v84 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v85 ((extractStridedSlice S16x64x128x128 ![0, 0, 2, 1] · slices_S16x64x130x130_S16x64x128x128_0_0_2_1) : (⟨S16x64x130x130, .f32⟩ : BufTy).Contents (Elt F) → (⟨S16x64x128x128, .f32⟩ : BufTy).Contents (Elt F)),
    StableHlo.unary main_v33 main_v86 ((extractStridedSlice S16x64x1 ![0, 0, 7] · slices_S16x64x9_S16x64x1_0_0_7) : (⟨S16x64x9, .f32⟩ : BufTy).Contents (Elt F) → (⟨S16x64x1, .f32⟩ : BufTy).Contents (Elt F)),
    StableHlo.reshape main_v86 main_v87 rfl shapeCasts_S16x64x1_S16x64,
    StableHlo.unary main_v87 main_v88 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v88 main_v89 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v85 main_v89 main_v90 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v84 main_v90 main_v91 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v92 ((extractStridedSlice S16x64x128x128 ![0, 0, 2, 2] · slices_S16x64x130x130_S16x64x128x128_0_0_2_2) : (⟨S16x64x130x130, .f32⟩ : BufTy).Contents (Elt F) → (⟨S16x64x128x128, .f32⟩ : BufTy).Contents (Elt F)),
    StableHlo.unary main_v33 main_v93 ((extractStridedSlice S16x64x1 ![0, 0, 8] · slices_S16x64x9_S16x64x1_0_0_8) : (⟨S16x64x9, .f32⟩ : BufTy).Contents (Elt F) → (⟨S16x64x1, .f32⟩ : BufTy).Contents (Elt F)),
    StableHlo.reshape main_v93 main_v94 rfl shapeCasts_S16x64x1_S16x64,
    StableHlo.unary main_v94 main_v95 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v95 main_v96 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v92 main_v96 main_v97 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v91 main_v97 main_v98 (addf : (⟨S16x64x128x128, .f32⟩ : BufTy).Contents (Elt F) → (⟨S16x64x128x128, .f32⟩ : BufTy).Contents (Elt F) → (⟨S16x64x128x128, .f32⟩ : BufTy).Contents (Elt F)),
    StableHlo.binary main_arg0 main_v98 main_v99 (subf : (⟨S16x64x128x128, .f32⟩ : BufTy).Contents (Elt F) → (⟨S16x64x128x128, .f32⟩ : BufTy).Contents (Elt F) → (⟨S16x64x128x128, .f32⟩ : BufTy).Contents (Elt F)) ]

-- one hundred and twenty-three binds re-associated: the rewrite under the chain recurses once per statement
set_option maxRecDepth 8192 in
set_option maxHeartbeats 4000000 in
/-- @main is that straight line: the two windows and the functions' definitions unfolded at their calls, both sides
    are one chain of steps once sequencing is re-associated. -/
theorem main_eq (c : Dev nD) : main (F := F) c = seq ops := by
  simp only [main, main_part0, main_part1, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., binary_bufs_sub ..⟩

/-- On every device, for any float values, from any memory with zero counters: every weakly fair execution of @main
    terminates, and every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefMath.lean ====
/-
  The reference's layout operations read at an index: the reflection padding and the nine taps.

  The padded array is built in four steps, each a slice of one row (or column), its reversal along an axis of extent
  one (the identity) and a concatenation: a row in front, a row behind, a column in front, a column behind. Read at
  padded coordinates (a, b) the result is the image at (refl a, refl b). Each tap is a slice of the padded array at
  offsets (i, j) times one column of the weight array broadcast over the plane; the nine are added from the left onto
  the zero array.
-/
import proofs.«177280_j19877108645998_1_alg».proof.Proof.Gen.ReferenceIdeal
import proofs.«177280_j19877108645998_1_alg».proof.Proof.Spec
import Idealize.ShloMosaic.Lib.Pipeline.Value
import Idealize.ShloMosaic.Lib.ValueIdx

noncomputable section

namespace Cert.ReferenceIdeal.RefMath

open Cert.ReferenceIdeal Cert.ReferenceIdeal.Gen Idealize.ShloMosaic Idealize.ShloMosaic.ValueIdx

/-- Reversal along axes of extent one is the identity. -/
theorem reverse_unit {s : Shape} {α : Type} (axes : List (Fin s.rank)) (x : s.Idx → α)
    (h : ∀ a ∈ axes, s.size a = 1) : Host.reverse axes x = x := by
  funext j
  unfold Host.reverse
  refine congrArg x (funext fun a => ?_)
  split
  · next ha =>
    apply Fin.ext
    have h1 := h a ha
    have h2 := (j a).isLt
    rw [Fin.val_rev]
    omega
  · rfl

/-! ## The four padding steps -/

/-- Row 1 in front of the image: 129 rows. -/
def rowsLo (x : FVec Ideal S16x64x128x128 .f32) : FVec Ideal S16x64x129x128 .f32 :=
  concatenate S16x64x129x128 2 [⟨S16x64x1x128, Host.reverse [2] (extractStridedSlice S16x64x1x128 ![0, 0, 1, 0] x slices_S16x64x128x128_S16x64x1x128_0_0_1_0)⟩, ⟨S16x64x128x128, x⟩] concatenates_S16x64x1x128_S16x64x128x128_S16x64x129x128_d2

/-- Row 127 of those behind them: 130 rows. -/
def rowsHi (y : FVec Ideal S16x64x129x128 .f32) : FVec Ideal S16x64x130x128 .f32 :=
  concatenate S16x64x130x128 2 [⟨S16x64x129x128, y⟩, ⟨S16x64x1x128, Host.reverse [2] (extractStridedSlice S16x64x1x128 ![0, 0, 127, 0] y slices_S16x64x129x128_S16x64x1x128_0_0_127_0)⟩] concatenates_S16x64x129x128_S16x64x1x128_S16x64x130x128_d2

/-- Column 1 in front: 129 columns. -/
def colsLo (y : FVec Ideal S16x64x130x128 .f32) : FVec Ideal S16x64x130x129 .f32 :=
  concatenate S16x64x130x129 3 [⟨S16x64x130x1, Host.reverse [3] (extractStridedSlice S16x64x130x1 ![0, 0, 0, 1] y slices_S16x64x130x128_S16x64x130x1_0_0_0_1)⟩, ⟨S16x64x130x128, y⟩] concatenates_S16x64x130x1_S16x64x130x128_S16x64x130x129_d3

/-- Column 127 of those behind them: 130 columns. -/
def colsHi (y : FVec Ideal S16x64x130x129 .f32) : FVec Ideal S16x64x130x130 .f32 :=
  concatenate S16x64x130x130 3 [⟨S16x64x130x129, y⟩, ⟨S16x64x130x1, Host.reverse [3] (extractStridedSlice S16x64x130x1 ![0, 0, 0, 127] y slices_S16x64x130x129_S16x64x130x1_0_0_0_127)⟩] concatenates_S16x64x130x129_S16x64x130x1_S16x64x130x130_d3

/-- The padded array. -/
def padR (x : FVec Ideal S16x64x128x128 .f32) : FVec Ideal S16x64x130x130 .f32 :=
  colsHi (colsLo (rowsHi (rowsLo x)))

theorem rowsLo_apply (x : FVec Ideal S16x64x128x128 .f32) (n : Fin 16) (c : Fin 64) (a : Fin 129) (w : Fin 128) :
    rowsLo x (ix4 n c a w) = x (ix4 n c ⟨if a.val = 0 then 1 else a.val - 1, by split <;> omega⟩ w) := by
  unfold rowsLo
  rw [reverse_unit _ _ (by decide)]
  by_cases h0 : a.val = 0
  · refine (concatenate_pair_apply_left (s₁ := S16x64x1x128) (s₂ := S16x64x128x128) _ _ _ _ (ix4 n c a w) rfl (ix4 n c (⟨0, by omega⟩ : Fin 1) w) ?_).trans ?_
    · intro b
      match b with
      | ⟨0, _⟩ => rfl
      | ⟨1, _⟩ => rfl
      | ⟨2, _⟩ => exact h0.symm
      | ⟨3, _⟩ => rfl
    · refine (extractStridedSlice_apply _ x _ _ (ix4 n c (⟨1, by omega⟩ : Fin 128) w) ?_).trans ?_
      · intro b
        match b with
        | ⟨0, _⟩ => exact (Nat.zero_add _).symm
        | ⟨1, _⟩ => exact (Nat.zero_add _).symm
        | ⟨2, _⟩ => rfl
        | ⟨3, _⟩ => exact (Nat.zero_add _).symm
      · refine congrArg x (congrArg (fun r => ix4 n c r w) (Fin.ext ?_))
        show 1 = if a.val = 0 then 1 else a.val - 1
        rw [if_pos h0]
  · refine (concatenate_pair_apply_right (s₁ := S16x64x1x128) (s₂ := S16x64x128x128) _ _ _ _ (ix4 n c a w) rfl rfl (ix4 n c (⟨a.val - 1, by omega⟩ : Fin 128) w) ?_ ?_).trans ?_
    · intro b hb
      match b with
      | ⟨0, _⟩ => rfl
      | ⟨1, _⟩ => rfl
      | ⟨2, _⟩ => exact absurd rfl hb
      | ⟨3, _⟩ => rfl
    · show a.val - 1 + 1 = a.val
      omega
    · refine congrArg x (congrArg (fun r => ix4 n c r w) (Fin.ext ?_))
      show a.val - 1 = if a.val = 0 then 1 else a.val - 1
      rw [if_neg h0]

theorem rowsHi_apply (y : FVec Ideal S16x64x129x128 .f32) (n : Fin 16) (c : Fin 64) (a : Fin 130) (w : Fin 128) :
    rowsHi y (ix4 n c a w) = y (ix4 n c ⟨if a.val = 129 then 127 else a.val, by split <;> omega⟩ w) := by
  unfold rowsHi
  rw [reverse_unit _ _ (by decide)]
  by_cases h0 : a.val = 129
  · refine (concatenate_pair_apply_right (s₁ := S16x64x129x128) (s₂ := S16x64x1x128) _ _ _ _ (ix4 n c a w) rfl rfl (ix4 n c (⟨0, by omega⟩ : Fin 1) w) ?_ ?_).trans ?_
    · intro b hb
      match b with
      | ⟨0, _⟩ => rfl
      | ⟨1, _⟩ => rfl
      | ⟨2, _⟩ => exact absurd rfl hb
      | ⟨3, _⟩ => rfl
    · show 0 + 129 = a.val
      omega
    · refine (extractStridedSlice_apply _ y _ _ (ix4 n c (⟨127, by omega⟩ : Fin 129) w) ?_).trans ?_
      · intro b
        match b with
        | ⟨0, _⟩ => exact (Nat.zero_add _).symm
        | ⟨1, _⟩ => exact (Nat.zero_add _).symm
        | ⟨2, _⟩ => rfl
        | ⟨3, _⟩ => exact (Nat.zero_add _).symm
      · refine congrArg y (congrArg (fun r => ix4 n c r w) (Fin.ext ?_))
        show 127 = if a.val = 129 then 127 else a.val
        rw [if_pos h0]
  · refine (concatenate_pair_apply_left (s₁ := S16x64x129x128) (s₂ := S16x64x1x128) _ _ _ _ (ix4 n c a w) rfl (ix4 n c (⟨a.val, by omega⟩ : Fin 129) w) ?_).trans ?_
    · intro b
      match b with
      | ⟨0, _⟩ => rfl
      | ⟨1, _⟩ => rfl
      | ⟨2, _⟩ => rfl
      | ⟨3, _⟩ => rfl
    · refine congrArg y (congrArg (fun r => ix4 n c r w) (Fin.ext ?_))
      show a.val = if a.val = 129 then 127 else a.val
      rw [if_neg h0]

theorem colsLo_apply (y : FVec Ideal S16x64x130x128 .f32) (n : Fin 16) (c : Fin 64) (a : Fin 130) (b : Fin 129) :
    colsLo y (ix4 n c a b) = y (ix4 n c a ⟨if b.val = 0 then 1 else b.val - 1, by split <;> omega⟩) := by
  unfold colsLo
  rw [reverse_unit _ _ (by decide)]
  by_cases h0 : b.val = 0
  · refine (concatenate_pair_apply_left (s₁ := S16x64x130x1) (s₂ := S16x64x130x128) _ _ _ _ (ix4 n c a b) rfl (ix4 n c a (⟨0, by omega⟩ : Fin 1)) ?_).trans ?_
    · intro d
      match d with
      | ⟨0, _⟩ => rfl
      | ⟨1, _⟩ => rfl
      | ⟨2, _⟩ => rfl
      | ⟨3, _⟩ => exact h0.symm
    · refine (extractStridedSlice_apply _ y _ _ (ix4 n c a (⟨1, by omega⟩ : Fin 128)) ?_).trans ?_
      · intro d
        match d with
        | ⟨0, _⟩ => exact (Nat.zero_add _).symm
        | ⟨1, _⟩ => exact (Nat.zero_add _).symm
        | ⟨2, _⟩ => exact (Nat.zero_add _).symm
        | ⟨3, _⟩ => rfl
      · refine congrArg y (congrArg (fun r => ix4 n c a r) (Fin.ext ?_))
        show 1 = if b.val = 0 then 1 else b.val - 1
        rw [if_pos h0]
  · refine (concatenate_pair_apply_right (s₁ := S16x64x130x1) (s₂ := S16x64x130x128) _ _ _ _ (ix4 n c a b) rfl rfl (ix4 n c a (⟨b.val - 1, by omega⟩ : Fin 128)) ?_ ?_).trans ?_
    · intro d hd
      match d with
      | ⟨0, _⟩ => rfl
      | ⟨1, _⟩ => rfl
      | ⟨2, _⟩ => rfl
      | ⟨3, _⟩ => exact absurd rfl hd
    · show b.val - 1 + 1 = b.val
      omega
    · refine congrArg y (congrArg (fun r => ix4 n c a r) (Fin.ext ?_))
      show b.val - 1 = if b.val = 0 then 1 else b.val - 1
      rw [if_neg h0]

theorem colsHi_apply (y : FVec Ideal S16x64x130x129 .f32) (n : Fin 16) (c : Fin 64) (a : Fin 130) (b : Fin 130) :
    colsHi y (ix4 n c a b) = y (ix4 n c a ⟨if b.val = 129 then 127 else b.val, by split <;> omega⟩) := by
  unfold colsHi
  rw [reverse_unit _ _ (by decide)]
  by_cases h0 : b.val = 129
  · refine (concatenate_pair_apply_right (s₁ := S16x64x130x129) (s₂ := S16x64x130x1) _ _ _ _ (ix4 n c a b) rfl rfl (ix4 n c a (⟨0, by omega⟩ : Fin 1)) ?_ ?_).trans ?_
    · intro d hd
      match d with
      | ⟨0, _⟩ => rfl
      | ⟨1, _⟩ => rfl
      | ⟨2, _⟩ => rfl
      | ⟨3, _⟩ => exact absurd rfl hd
    · show 0 + 129 = b.val
      omega
    · refine (extractStridedSlice_apply _ y _ _ (ix4 n c a (⟨127, by omega⟩ : Fin 129)) ?_).trans ?_
      · intro d
        match d with
        | ⟨0, _⟩ => exact (Nat.zero_add _).symm
        | ⟨1, _⟩ => exact (Nat.zero_add _).symm
        | ⟨2, _⟩ => exact (Nat.zero_add _).symm
        | ⟨3, _⟩ => rfl
      · refine congrArg y (congrArg (fun r => ix4 n c a r) (Fin.ext ?_))
        show 127 = if b.val = 129 then 127 else b.val
        rw [if_pos h0]
  · refine (concatenate_pair_apply_left (s₁ := S16x64x130x129) (s₂ := S16x64x130x1) _ _ _ _ (ix4 n c a b) rfl (ix4 n c a (⟨b.val, by omega⟩ : Fin 129)) ?_).trans ?_
    · intro d
      match d with
      | ⟨0, _⟩ => rfl
      | ⟨1, _⟩ => rfl
      | ⟨2, _⟩ => rfl
      | ⟨3, _⟩ => rfl
    · refine congrArg y (congrArg (fun r => ix4 n c a r) (Fin.ext ?_))
      show b.val = if b.val = 129 then 127 else b.val
      rw [if_neg h0]

/-- A copy of coordinate 127 behind (at 129), then a copy of coordinate 1 in front (at 0) and the rest moved up by one:
    together, the reflection. -/
theorem refl_two (a : Nat) (ha : a < 130) :
    (if (if a = 129 then 127 else a) = 0 then 1 else (if a = 129 then 127 else a) - 1) = Cert.Spec.refl a := by
  unfold Cert.Spec.refl
  by_cases h1 : a = 129
  · subst h1; rfl
  · by_cases h0 : a = 0
    · subst h0; rfl
    · simp only [if_neg h1, if_neg h0]

/-- The padded array at padded coordinates (a, b) is the image at (refl a, refl b). -/
theorem padR_apply (x : FVec Ideal S16x64x128x128 .f32) (n : Fin 16) (c : Fin 64) (a b : Fin 130) :
    padR x (ix4 n c a b)
      = x (ix4 n c ⟨Cert.Spec.refl a.val, Cert.Spec.refl_lt _ a.isLt⟩ ⟨Cert.Spec.refl b.val, Cert.Spec.refl_lt _ b.isLt⟩) := by
  unfold padR
  rw [colsHi_apply, colsLo_apply, rowsHi_apply, rowsLo_apply]
  have ha := a.isLt
  have hb := b.isLt
  exact congrArg x (congrArg₂ (fun r s => ix4 n c r s) (Fin.ext (refl_two a.val ha)) (Fin.ext (refl_two b.val hb)))

/-! ## One weight column over the plane, one tap, the nine taps -/

/-- Column `k` of the weight array, broadcast over every plane. -/
def wcol (f : FVec Ideal S16x64x9 .f32) (k : Nat) (hs : S16x64x9.Slices ![0, 0, k] S16x64x1) :
    FVec Ideal S16x64x128x128 .f32 :=
  broadcastInDim S16x64x128x128 ![0, 1, 2, 3] bcast_S16x64x1x1_S16x64x128x128_0_1_2_3
    (broadcastInDim S16x64x1x1 ![0, 1] bcast_S16x64_S16x64x1x1_0_1
      (shapeCast S16x64 (extractStridedSlice S16x64x1 ![0, 0, k] f hs) shapeCasts_S16x64x1_S16x64))

theorem wcol_apply (f : FVec Ideal S16x64x9 .f32) (k : Nat) (hk : k < 9) (hs : S16x64x9.Slices ![0, 0, k] S16x64x1)
    (n : Fin 16) (c : Fin 64) (h w : Fin 128) : wcol f k hs (ix4 n c h w) = f (ix3 n c ⟨k, hk⟩) := by
  unfold wcol
  refine (broadcastInDim_apply _ _ _ (ix4 n c h w) (ix4 n c (⟨0, by omega⟩ : Fin 1) (⟨0, by omega⟩ : Fin 1)) ?_).trans ?_
  · intro a
    match a with
    | ⟨0, _⟩ => rfl
    | ⟨1, _⟩ => rfl
    | ⟨2, _⟩ => rfl
    | ⟨3, _⟩ => rfl
  refine (broadcastInDim_apply _ _ _ (ix4 n c (⟨0, by omega⟩ : Fin 1) (⟨0, by omega⟩ : Fin 1)) (ix2 n c) ?_).trans ?_
  · intro a
    match a with
    | ⟨0, _⟩ => rfl
    | ⟨1, _⟩ => rfl
  refine (shapeCast_apply _ _ (ix2 n c) (ix3 n c (⟨0, by omega⟩ : Fin 1)) ?_).trans ?_
  · have e1 := Shape.rowMajor_val_three (d := ![16, 64, 1]) (ix3 n c (⟨0, by omega⟩ : Fin 1))
    have e2 := Shape.rowMajor_val_two (d := ![16, 64]) (ix2 n c)
    refine e1.trans (Eq.trans ?_ e2.symm)
    show (n.val * 64 + c.val) * 1 + 0 = n.val * 64 + c.val
    omega
  refine extractStridedSlice_apply _ f hs (ix3 n c (⟨0, by omega⟩ : Fin 1)) (ix3 n c ⟨k, hk⟩) ?_
  intro a
  match a with
  | ⟨0, _⟩ => exact (Nat.zero_add _).symm
  | ⟨1, _⟩ => exact (Nat.zero_add _).symm
  | ⟨2, _⟩ => rfl

/-- Tap (i, j) with weight column `k`: the padded array shifted by (i, j) times the column. -/
def tapR (P : FVec Ideal S16x64x130x130 .f32) (f : FVec Ideal S16x64x9 .f32) (i j k : Nat)
    (hP : S16x64x130x130.Slices ![0, 0, i, j] S16x64x128x128) (hF : S16x64x9.Slices ![0, 0, k] S16x64x1) :
    FVec Ideal S16x64x128x128 .f32 :=
  mulf (extractStridedSlice S16x64x128x128 ![0, 0, i, j] P hP) (wcol f k hF)

theorem tapR_apply (P : FVec Ideal S16x64x130x130 .f32) (f : FVec Ideal S16x64x9 .f32) (i j k : Nat)
    (hi : i < 3) (hj : j < 3) (hk : k < 9)
    (hP : S16x64x130x130.Slices ![0, 0, i, j] S16x64x128x128) (hF : S16x64x9.Slices ![0, 0, k] S16x64x1)
    (n : Fin 16) (c : Fin 64) (h w : Fin 128) :
    tapR P f i j k hP hF (ix4 n c h w)
      = P (ix4 n c ⟨h.val + i, by omega⟩ ⟨w.val + j, by omega⟩) * f (ix3 n c ⟨k, hk⟩) := by
  unfold tapR
  rw [mulf_apply, wcol_apply f k hk]
  refine congrArg (· * f (ix3 n c ⟨k, hk⟩)) ?_
  refine extractStridedSlice_apply _ P hP (ix4 n c h w) (ix4 n c (⟨h.val + i, by omega⟩ : Fin 130) (⟨w.val + j, by omega⟩ : Fin 130)) ?_
  intro a
  match a with
  | ⟨0, _⟩ => exact (Nat.zero_add _).symm
  | ⟨1, _⟩ => exact (Nat.zero_add _).symm
  | ⟨2, _⟩ => exact Nat.add_comm _ _
  | ⟨3, _⟩ => exact Nat.add_comm _ _

/-- The nine taps added from the left onto the zero array. -/
def lowR (P : FVec Ideal S16x64x130x130 .f32) (f : FVec Ideal S16x64x9 .f32) : FVec Ideal S16x64x128x128 .f32 :=
  addf (addf (addf (addf (addf (addf (addf (addf (addf (broadcastInDim S16x64x128x128 ![] bcast_S_S16x64x128x128 (constant (F := Ideal) S_ .f32 0x00000000#32))
      (tapR P f 0 0 0 slices_S16x64x130x130_S16x64x128x128_0_0_0_0 slices_S16x64x9_S16x64x1_0_0_0))
      (tapR P f 0 1 1 slices_S16x64x130x130_S16x64x128x128_0_0_0_1 slices_S16x64x9_S16x64x1_0_0_1))
      (tapR P f 0 2 2 slices_S16x64x130x130_S16x64x128x128_0_0_0_2 slices_S16x64x9_S16x64x1_0_0_2))
      (tapR P f 1 0 3 slices_S16x64x130x130_S16x64x128x128_0_0_1_0 slices_S16x64x9_S16x64x1_0_0_3))
      (tapR P f 1 1 4 slices_S16x64x130x130_S16x64x128x128_0_0_1_1 slices_S16x64x9_S16x64x1_0_0_4))
      (tapR P f 1 2 5 slices_S16x64x130x130_S16x64x128x128_0_0_1_2 slices_S16x64x9_S16x64x1_0_0_5))
      (tapR P f 2 0 6 slices_S16x64x130x130_S16x64x128x128_0_0_2_0 slices_S16x64x9_S16x64x1_0_0_6))
      (tapR P f 2 1 7 slices_S16x64x130x130_S16x64x128x128_0_0_2_1 slices_S16x64x9_S16x64x1_0_0_7))
      (tapR P f 2 2 8 slices_S16x64x130x130_S16x64x128x128_0_0_2_2 slices_S16x64x9_S16x64x1_0_0_8)

theorem zero_apply (i : S16x64x128x128.Idx) :
    broadcastInDim S16x64x128x128 ![] bcast_S_S16x64x128x128 (constant (F := Ideal) S_ .f32 0x00000000#32) i
      = Ideal.ofBits .f32 0x00000000#32 :=
  broadcastInDim_apply _ _ _ i ix0 (fun a => a.elim0)

/-- The nine taps over the padded image are the specification's low-pass array. -/
theorem lowR_padR (x : FVec Ideal S16x64x128x128 .f32) (f : FVec Ideal S16x64x9 .f32) :
    lowR (padR x) f = Cert.Spec.low x f := by
  funext i
  obtain ⟨n, c, h, w, rfl⟩ : ∃ (n : Fin 16) (c : Fin 64) (h w : Fin 128), i = ix4 n c h w := ⟨_, _, _, _, eq_ix4 i⟩
  rw [Cert.Spec.low_apply]
  unfold lowR Cert.Spec.lowC Cert.Spec.tap Cert.Spec.padAt
  simp (disch := omega) only [addf_apply, tapR_apply, padR_apply]
  rw [zero_apply (ix4 n c h w)]

/-- The image less the nine taps is the specification's residual. -/
theorem resid_eq (x : FVec Ideal S16x64x128x128 .f32) (f : FVec Ideal S16x64x9 .f32) :
    subf x (lowR (padR x) f) = Cert.Spec.resid x f := by
  rw [lowR_padR]
  rfl

end Cert.ReferenceIdeal.RefMath

end
-- ==== Proof.RefGlue.lean ====
/-
  The two host computations both programs share, as functions of the argument arrays over the extended reals:
  the per-channel means of the image, and the weights computed from them (a 1×1 convolution, a batch normalisation,
  a softmax over each group of nine, each group's weights repeated for its eight channels). Each is the reference's
  own sequence of operations composed into one term; nothing here looks inside them.
-/
import proofs.«177280_j19877108645998_1_alg».proof.Proof.Gen.ReferenceIdeal
import Idealize.ShloMosaic.PureOps.Ideal

noncomputable section

namespace Cert.ReferenceIdeal.RefRead

open Cert.ReferenceIdeal Cert.ReferenceIdeal.Gen Idealize.ShloMosaic

/-- The per-channel means: the sum over each plane divided by the number of its pixels. -/
def pooledR (x : FVec Ideal S16x64x128x128 .f32) : FVec Ideal S16x64 .f32 :=
  Host.divf (F := Ideal) (Host.reduceAdd (F := Ideal) x (constant (F := Ideal) S_ .f32 0x00000000#32) reducesTo_S16x64x128x128_S16x64_d2_3 h_S_) (broadcastInDim S16x64 ![] bcast_S_S16x64 (constant (F := Ideal) S_ .f32 0x46800000#32))

/-- The weights from the means `p`, the convolution matrix `a1` and the four normalisation vectors. -/
def glueR (p : FVec Ideal S16x64 .f32) (a1 : FVec Ideal S72x64 .f32) (a2 a3 a4 a5 : FVec Ideal S72 .f32) :
    FVec Ideal S16x64x9 .f32 :=
  shapeCast S16x64x9 (broadcastInDim S16x8x8x9 ![0, 1, 3] bcast_S16x8x9_S16x8x8x9_0_1_3 (Host.divf (F := Ideal) (Host.exp (F := Ideal) (subf (shapeCast S16x8x9 (addf (mulf (mulf (broadcastInDim S16x72 ![0, 1] bcast_S1x72_S16x72_0_1 (broadcastInDim S1x72 ![1] bcast_S72_S1x72_1 a2)) (subf (Host.dotGeneral (F := Ideal) dot_S16x64_S64x72_S16x72_1_0_0_1_n_n none p (transpose S64x72 [1, 0] a1 transposes_S72x64_S64x72_1_0)) (broadcastInDim S16x72 ![0, 1] bcast_S1x72_S16x72_0_1 (broadcastInDim S1x72 ![1] bcast_S72_S1x72_1 a4)))) (broadcastInDim S16x72 ![0, 1] bcast_S1x72_S16x72_0_1 (broadcastInDim S1x72 ![1] bcast_S72_S1x72_1 (Host.rsqrt (F := Ideal) (addf a5 (broadcastInDim S72 ![] bcast_S_S72 (constant (F := Ideal) S_ .f32 0x3727C5AC#32))))))) (broadcastInDim S16x72 ![0, 1] bcast_S1x72_S16x72_0_1 (broadcastInDim S1x72 ![1] bcast_S72_S1x72_1 a3))) shapeCasts_S16x72_S16x8x9) (broadcastInDim S16x8x9 ![0, 1, 2] bcast_S16x8x1_S16x8x9_0_1_2 (broadcastInDim S16x8x1 ![0, 1] bcast_S16x8_S16x8x1_0_1 (maximumf (broadcastInDim S16x8 ![] bcast_S_S16x8 (constant (F := Ideal) S_ .f32 0xFF800000#32)) (Host.reduce FloatOps.maximumf (shapeCast S16x8x9 (addf (mulf (mulf (broadcastInDim S16x72 ![0, 1] bcast_S1x72_S16x72_0_1 (broadcastInDim S1x72 ![1] bcast_S72_S1x72_1 a2)) (subf (Host.dotGeneral (F := Ideal) dot_S16x64_S64x72_S16x72_1_0_0_1_n_n none p (transpose S64x72 [1, 0] a1 transposes_S72x64_S64x72_1_0)) (broadcastInDim S16x72 ![0, 1] bcast_S1x72_S16x72_0_1 (broadcastInDim S1x72 ![1] bcast_S72_S1x72_1 a4)))) (broadcastInDim S16x72 ![0, 1] bcast_S1x72_S16x72_0_1 (broadcastInDim S1x72 ![1] bcast_S72_S1x72_1 (Host.rsqrt (F := Ideal) (addf a5 (broadcastInDim S72 ![] bcast_S_S72 (constant (F := Ideal) S_ .f32 0x3727C5AC#32))))))) (broadcastInDim S16x72 ![0, 1] bcast_S1x72_S16x72_0_1 (broadcastInDim S1x72 ![1] bcast_S72_S1x72_1 a3))) shapeCasts_S16x72_S16x8x9) (constant (F := Ideal) S_ .f32 0xFF800000#32) reducesTo_S16x8x9_S16x8_d2 h_S_)))))) (broadcastInDim S16x8x9 ![0, 1, 2] bcast_S16x8x1_S16x8x9_0_1_2 (broadcastInDim S16x8x1 ![0, 1] bcast_S16x8_S16x8x1_0_1 (Host.reduceAdd (F := Ideal) (Host.exp (F := Ideal) (subf (shapeCast S16x8x9 (addf (mulf (mulf (broadcastInDim S16x72 ![0, 1] bcast_S1x72_S16x72_0_1 (broadcastInDim S1x72 ![1] bcast_S72_S1x72_1 a2)) (subf (Host.dotGeneral (F := Ideal) dot_S16x64_S64x72_S16x72_1_0_0_1_n_n none p (transpose S64x72 [1, 0] a1 transposes_S72x64_S64x72_1_0)) (broadcastInDim S16x72 ![0, 1] bcast_S1x72_S16x72_0_1 (broadcastInDim S1x72 ![1] bcast_S72_S1x72_1 a4)))) (broadcastInDim S16x72 ![0, 1] bcast_S1x72_S16x72_0_1 (broadcastInDim S1x72 ![1] bcast_S72_S1x72_1 (Host.rsqrt (F := Ideal) (addf a5 (broadcastInDim S72 ![] bcast_S_S72 (constant (F := Ideal) S_ .f32 0x3727C5AC#32))))))) (broadcastInDim S16x72 ![0, 1] bcast_S1x72_S16x72_0_1 (broadcastInDim S1x72 ![1] bcast_S72_S1x72_1 a3))) shapeCasts_S16x72_S16x8x9) (broadcastInDim S16x8x9 ![0, 1, 2] bcast_S16x8x1_S16x8x9_0_1_2 (broadcastInDim S16x8x1 ![0, 1] bcast_S16x8_S16x8x1_0_1 (maximumf (broadcastInDim S16x8 ![] bcast_S_S16x8 (constant (F := Ideal) S_ .f32 0xFF800000#32)) (Host.reduce FloatOps.maximumf (shapeCast S16x8x9 (addf (mulf (mulf (broadcastInDim S16x72 ![0, 1] bcast_S1x72_S16x72_0_1 (broadcastInDim S1x72 ![1] bcast_S72_S1x72_1 a2)) (subf (Host.dotGeneral (F := Ideal) dot_S16x64_S64x72_S16x72_1_0_0_1_n_n none p (transpose S64x72 [1, 0] a1 transposes_S72x64_S64x72_1_0)) (broadcastInDim S16x72 ![0, 1] bcast_S1x72_S16x72_0_1 (broadcastInDim S1x72 ![1] bcast_S72_S1x72_1 a4)))) (broadcastInDim S16x72 ![0, 1] bcast_S1x72_S16x72_0_1 (broadcastInDim S1x72 ![1] bcast_S72_S1x72_1 (Host.rsqrt (F := Ideal) (addf a5 (broadcastInDim S72 ![] bcast_S_S72 (constant (F := Ideal) S_ .f32 0x3727C5AC#32))))))) (broadcastInDim S16x72 ![0, 1] bcast_S1x72_S16x72_0_1 (broadcastInDim S1x72 ![1] bcast_S72_S1x72_1 a3))) shapeCasts_S16x72_S16x8x9) (constant (F := Ideal) S_ .f32 0xFF800000#32) reducesTo_S16x8x9_S16x8_d2 h_S_)))))) (constant (F := Ideal) S_ .f32 0x00000000#32) reducesTo_S16x8x9_S16x8_d2 h_S_))))) shapeCasts_S16x8x8x9_S16x64x9

end Cert.ReferenceIdeal.RefRead

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.RefRead.lean ====
/-
  The reference's results read as the specification.

  The line of 123 operations is cut in three: the means and the weights (40 operations), the padding (17), the nine
  taps and the residual (66). Each part is read over an arbitrary starting valuation: the weights' buffer holds the
  shared weight function of the argument arrays, the padded buffer the padded image, the two results the nine-tap sum of
  the padded buffer with the weight buffer and the image less that sum. Chained, and with the index-by-index reading
  of the padding and the taps, the results are the specification's low-pass array and residual.
-/
import proofs.«177280_j19877108645998_1_alg».proof.Proof.RefRun
import proofs.«177280_j19877108645998_1_alg».proof.Proof.RefMath
import proofs.«177280_j19877108645998_1_alg».proof.Proof.RefGlue
import proofs.«177280_j19877108645998_1_alg».proof.Proof.LibFoldRead

noncomputable section

namespace Cert.ReferenceIdeal.RefRead

open Cert.ReferenceIdeal Cert.ReferenceIdeal.Gen Idealize.ShloMosaic Idealize.ShloMosaic.TcCoe Idealize.SL.Sem Idealize.ShloMosaic.StableHlo
open Cert.ReferenceIdeal.RefRun Cert.ReferenceIdeal.RefMath

section Segments
variable {F : FTy → Type} [FloatOps F]

/-- The means and the weights: operations 1 to 40. -/
abbrev seg1 : List (HloOp τ sig (Elt F)) :=
  [ StableHlo.nullary main_cst (constant S_ .f32 0x00000000#32),
    StableHlo.binary main_arg0 main_cst main_v0 ((fun x v => Host.reduceAdd x v reducesTo_S16x64x128x128_S16x64_d2_3 h_S_) : (⟨S16x64x128x128, .f32⟩ : BufTy).Contents (Elt F) → (⟨S_, .f32⟩ : BufTy).Contents (Elt F) → (⟨S16x64, .f32⟩ : BufTy).Contents (Elt F)),
    StableHlo.nullary main_cst_0 (constant S_ .f32 0x46800000#32),
    StableHlo.unary main_cst_0 main_v1 (broadcastInDim S16x64 ![] bcast_S_S16x64 : (⟨S_, .f32⟩ : BufTy).Contents (Elt F) → (⟨S16x64, .f32⟩ : BufTy).Contents (Elt F)),
    StableHlo.binary main_v0 main_v1 main_v2 (Host.divf : (⟨S16x64, .f32⟩ : BufTy).Contents (Elt F) → (⟨S16x64, .f32⟩ : BufTy).Contents (Elt F) → (⟨S16x64, .f32⟩ : BufTy).Contents (Elt F)),
    StableHlo.unary main_arg1 main_v3 ((transpose S64x72 [1, 0] · transposes_S72x64_S64x72_1_0) : (⟨S72x64, .f32⟩ : BufTy).Contents (Elt F) → (⟨S64x72, .f32⟩ : BufTy).Contents (Elt F)),
    StableHlo.binary main_v2 main_v3 main_v4 ((fun l r => Host.dotGeneral dot_S16x64_S64x72_S16x72_1_0_0_1_n_n none l r) : (⟨S16x64, .f32⟩ : BufTy).Contents (Elt F) → (⟨S64x72, .f32⟩ : BufTy).Contents (Elt F) → (⟨S16x72, .f32⟩ : BufTy).Contents (Elt F)),
    StableHlo.unary main_arg4 main_v5 (broadcastInDim S1x72 ![1] bcast_S72_S1x72_1 : (⟨S72, .f32⟩ : BufTy).Contents (Elt F) → (⟨S1x72, .f32⟩ : BufTy).Contents (Elt F)),
    StableHlo.unary main_v5 main_v6 (broadcastInDim S16x72 ![0, 1] bcast_S1x72_S16x72_0_1 : (⟨S1x72, .f32⟩ : BufTy).Contents (Elt F) → (⟨S16x72, .f32⟩ : BufTy).Contents (Elt F)),
    StableHlo.binary main_v4 main_v6 main_v7 (subf : (⟨S16x72, .f32⟩ : BufTy).Contents (Elt F) → (⟨S16x72, .f32⟩ : BufTy).Contents (Elt F) → (⟨S16x72, .f32⟩ : BufTy).Contents (Elt F)),
    StableHlo.unary main_arg2 main_v8 (broadcastInDim S1x72 ![1] bcast_S72_S1x72_1 : (⟨S72, .f32⟩ : BufTy).Contents (Elt F) → (⟨S1x72, .f32⟩ : BufTy).Contents (Elt F)),
    StableHlo.unary main_v8 main_v9 (broadcastInDim S16x72 ![0, 1] bcast_S1x72_S16x72_0_1 : (⟨S1x72, .f32⟩ : BufTy).Contents (Elt F) → (⟨S16x72, .f32⟩ : BufTy).Contents (Elt F)),
    StableHlo.binary main_v9 main_v7 main_v10 (mulf : (⟨S16x72, .f32⟩ : BufTy).Contents (Elt F) → (⟨S16x72, .f32⟩ : BufTy).Contents (Elt F) → (⟨S16x72, .f32⟩ : BufTy).Contents (Elt F)),
    StableHlo.nullary main_cst_1 (constant S_ .f32 0x3727C5AC#32),
    StableHlo.unary main_cst_1 main_v11 (broadcastInDim S72 ![] bcast_S_S72 : (⟨S_, .f32⟩ : BufTy).Contents (Elt F) → (⟨S72, .f32⟩ : BufTy).Contents (Elt F)),
    StableHlo.binary main_arg5 main_v11 main_v12 (addf : (⟨S72, .f32⟩ : BufTy).Contents (Elt F) → (⟨S72, .f32⟩ : BufTy).Contents (Elt F) → (⟨S72, .f32⟩ : BufTy).Contents (Elt F)),
    StableHlo.unary main_v12 main_v13 (Host.rsqrt : (⟨S72, .f32⟩ : BufTy).Contents (Elt F) → (⟨S72, .f32⟩ : BufTy).Contents (Elt F)),
    StableHlo.unary main_v13 main_v14 (broadcastInDim S1x72 ![1] bcast_S72_S1x72_1 : (⟨S72, .f32⟩ : BufTy).Contents (Elt F) → (⟨S1x72, .f32⟩ : BufTy).Contents (Elt F)),
    StableHlo.unary main_v14 main_v15 (broadcastInDim S16x72 ![0, 1] bcast_S1x72_S16x72_0_1 : (⟨S1x72, .f32⟩ : BufTy).Contents (Elt F) → (⟨S16x72, .f32⟩ : BufTy).Contents (Elt F)),
    StableHlo.binary main_v10 main_v15 main_v16 (mulf : (⟨S16x72, .f32⟩ : BufTy).Contents (Elt F) → (⟨S16x72, .f32⟩ : BufTy).Contents (Elt F) → (⟨S16x72, .f32⟩ : BufTy).Contents (Elt F)),
    StableHlo.unary main_arg3 main_v17 (broadcastInDim S1x72 ![1] bcast_S72_S1x72_1 : (⟨S72, .f32⟩ : BufTy).Contents (Elt F) → (⟨S1x72, .f32⟩ : BufTy).Contents (Elt F)),
    StableHlo.unary main_v17 main_v18 (broadcastInDim S16x72 ![0, 1] bcast_S1x72_S16x72_0_1 : (⟨S1x72, .f32⟩ : BufTy).Contents (Elt F) → (⟨S16x72, .f32⟩ : BufTy).Contents (Elt F)),
    StableHlo.binary main_v16 main_v18 main_v19 (addf : (⟨S16x72, .f32⟩ : BufTy).Contents (Elt F) → (⟨S16x72, .f32⟩ : BufTy).Contents (Elt F) → (⟨S16x72, .f32⟩ : BufTy).Contents (Elt F)),
    StableHlo.reshape main_v19 main_v20 rfl shapeCasts_S16x72_S16x8x9,
    StableHlo.nullary main_cst_2 (constant S_ .f32 0xFF800000#32),
    StableHlo.binary main_v20 main_cst_2 main_v21 ((fun x v => Host.reduce FloatOps.maximumf x v reducesTo_S16x8x9_S16x8_d2 h_S_) : (⟨S16x8x9, .f32⟩ : BufTy).Contents (Elt F) → (⟨S_, .f32⟩ : BufTy).Contents (Elt F) → (⟨S16x8, .f32⟩ : BufTy).Contents (Elt F)),
    StableHlo.nullary main_cst_3 (constant S_ .f32 0xFF800000#32),
    StableHlo.unary main_cst_3 main_v22 (broadcastInDim S16x8 ![] bcast_S_S16x8 : (⟨S_, .f32⟩ : BufTy).Contents (Elt F) → (⟨S16x8, .f32⟩ : BufTy).Contents (Elt F)),
    StableHlo.binary main_v22 main_v21 main_v23 (maximumf : (⟨S16x8, .f32⟩ : BufTy).Contents (Elt F) → (⟨S16x8, .f32⟩ : BufTy).Contents (Elt F) → (⟨S16x8, .f32⟩ : BufTy).Contents (Elt F)),
    StableHlo.unary main_v23 main_v24 (broadcastInDim S16x8x1 ![0, 1] bcast_S16x8_S16x8x1_0_1 : (⟨S16x8, .f32⟩ : BufTy).Contents (Elt F) → (⟨S16x8x1, .f32⟩ : BufTy).Contents (Elt F)),
    StableHlo.unary main_v24 main_v25 (broadcastInDim S16x8x9 ![0, 1, 2] bcast_S16x8x1_S16x8x9_0_1_2 : (⟨S16x8x1, .f32⟩ : BufTy).Contents (Elt F) → (⟨S16x8x9, .f32⟩ : BufTy).Contents (Elt F)),
    StableHlo.binary main_v20 main_v25 main_v26 (subf : (⟨S16x8x9, .f32⟩ : BufTy).Contents (Elt F) → (⟨S16x8x9, .f32⟩ : BufTy).Contents (Elt F) → (⟨S16x8x9, .f32⟩ : BufTy).Contents (Elt F)),
    StableHlo.unary main_v26 main_v27 (Host.exp : (⟨S16x8x9, .f32⟩ : BufTy).Contents (Elt F) → (⟨S16x8x9, .f32⟩ : BufTy).Contents (Elt F)),
    StableHlo.nullary main_cst_4 (constant S_ .f32 0x00000000#32),
    StableHlo.binary main_v27 main_cst_4 main_v28 ((fun x v => Host.reduceAdd x v reducesTo_S16x8x9_S16x8_d2 h_S_) : (⟨S16x8x9, .f32⟩ : BufTy).Contents (Elt F) → (⟨S_, .f32⟩ : BufTy).Contents (Elt F) → (⟨S16x8, .f32⟩ : BufTy).Contents (Elt F)),
    StableHlo.unary main_v28 main_v29 (broadcastInDim S16x8x1 ![0, 1] bcast_S16x8_S16x8x1_0_1 : (⟨S16x8, .f32⟩ : BufTy).Contents (Elt F) → (⟨S16x8x1, .f32⟩ : BufTy).Contents (Elt F)),
    StableHlo.unary main_v29 main_v30 (broadcastInDim S16x8x9 ![0, 1, 2] bcast_S16x8x1_S16x8x9_0_1_2 : (⟨S16x8x1, .f32⟩ : BufTy).Contents (Elt F) → (⟨S16x8x9, .f32⟩ : BufTy).Contents (Elt F)),
    StableHlo.binary main_v27 main_v30 main_v31 (Host.divf : (⟨S16x8x9, .f32⟩ : BufTy).Contents (Elt F) → (⟨S16x8x9, .f32⟩ : BufTy).Contents (Elt F) → (⟨S16x8x9, .f32⟩ : BufTy).Contents (Elt F)),
    StableHlo.unary main_v31 main_v32 (broadcastInDim S16x8x8x9 ![0, 1, 3] bcast_S16x8x9_S16x8x8x9_0_1_3 : (⟨S16x8x9, .f32⟩ : BufTy).Contents (Elt F) → (⟨S16x8x8x9, .f32⟩ : BufTy).Contents (Elt F)),
    StableHlo.reshape main_v32 main_v33 rfl shapeCasts_S16x8x8x9_S16x64x9 ]

/-- The integer zero and the padding: operations 41 to 57. -/
abbrev seg2 : List (HloOp τ sig (Elt F)) :=
  [ StableHlo.nullary main_c (constantI S_ 32 0#32),
    StableHlo.TRef.unary (.of main_arg0 : TRef sig ⟨S16x64x128x128, .f32⟩) main_call0.v0 (extractStridedSlice S16x64x1x128 ![0, 0, 0, 0] · slices_S16x64x128x128_S16x64x1x128_0_0_0_0),
    StableHlo.TRef.unary (.of main_arg0 : TRef sig ⟨S16x64x128x128, .f32⟩) main_call0.v1 (extractStridedSlice S16x64x1x128 ![0, 0, 1, 0] · slices_S16x64x128x128_S16x64x1x128_0_0_1_0),
    StableHlo.TRef.unary main_call0.v1 main_call0.call0.v0 (Host.reverse [2]),
    StableHlo.TRef.binary main_call0.call0.v0 (.of main_arg0 : TRef sig ⟨S16x64x128x128, .f32⟩) main_call0.v3 (fun a b => concatenate S16x64x129x128 2 [⟨S16x64x1x128, a⟩, ⟨S16x64x128x128, b⟩] concatenates_S16x64x1x128_S16x64x128x128_S16x64x129x128_d2),
    StableHlo.TRef.unary main_call0.v3 main_call0.v4 (extractStridedSlice S16x64x1x128 ![0, 0, 128, 0] · slices_S16x64x129x128_S16x64x1x128_0_0_128_0),
    StableHlo.TRef.unary main_call0.v3 main_call0.v5 (extractStridedSlice S16x64x1x128 ![0, 0, 127, 0] · slices_S16x64x129x128_S16x64x1x128_0_0_127_0),
    StableHlo.TRef.unary main_call0.v5 main_call0.call1.v0 (Host.reverse [2]),
    StableHlo.TRef.binary main_call0.v3 main_call0.call1.v0 main_call0.v7 (fun a b => concatenate S16x64x130x128 2 [⟨S16x64x129x128, a⟩, ⟨S16x64x1x128, b⟩] concatenates_S16x64x129x128_S16x64x1x128_S16x64x130x128_d2),
    StableHlo.TRef.unary main_call0.v7 main_call0.v8 (extractStridedSlice S16x64x130x1 ![0, 0, 0, 0] · slices_S16x64x130x128_S16x64x130x1_0_0_0_0),
    StableHlo.TRef.unary main_call0.v7 main_call0.v9 (extractStridedSlice S16x64x130x1 ![0, 0, 0, 1] · slices_S16x64x130x128_S16x64x130x1_0_0_0_1),
    StableHlo.TRef.unary main_call0.v9 main_call0.call2.v0 (Host.reverse [3]),
    StableHlo.TRef.binary main_call0.call2.v0 main_call0.v7 main_call0.v11 (fun a b => concatenate S16x64x130x129 3 [⟨S16x64x130x1, a⟩, ⟨S16x64x130x128, b⟩] concatenates_S16x64x130x1_S16x64x130x128_S16x64x130x129_d3),
    StableHlo.TRef.unary main_call0.v11 main_call0.v12 (extractStridedSlice S16x64x130x1 ![0, 0, 0, 128] · slices_S16x64x130x129_S16x64x130x1_0_0_0_128),
    StableHlo.TRef.unary main_call0.v11 main_call0.v13 (extractStridedSlice S16x64x130x1 ![0, 0, 0, 127] · slices_S16x64x130x129_S16x64x130x1_0_0_0_127),
    StableHlo.TRef.unary main_call0.v13 main_call0.call3.v0 (Host.reverse [3]),
    StableHlo.TRef.binary main_call0.v11 main_call0.call3.v0 main_call0.v15 (fun a b => concatenate S16x64x130x130 3 [⟨S16x64x130x129, a⟩, ⟨S16x64x130x1, b⟩] concatenates_S16x64x130x129_S16x64x130x1_S16x64x130x130_d3) ]

/-- The zero array, the nine taps and the residual: operations 58 to 123. -/
abbrev seg3 : List (HloOp τ sig (Elt F)) :=
  [ StableHlo.nullary main_cst_5 (constant S_ .f32 0x00000000#32),
    StableHlo.unary main_cst_5 main_v35 (broadcastInDim S16x64x128x128 ![] bcast_S_S16x64x128x128 : (⟨S_, .f32⟩ : BufTy).Contents (Elt F) → (⟨S16x64x128x128, .f32⟩ : BufTy).Contents (Elt F)),
    StableHlo.unary main_v34 main_v36 ((extractStridedSlice S16x64x128x128 ![0, 0, 0, 0] · slices_S16x64x130x130_S16x64x128x128_0_0_0_0) : (⟨S16x64x130x130, .f32⟩ : BufTy).Contents (Elt F) → (⟨S16x64x128x128, .f32⟩ : BufTy).Contents (Elt F)),
    StableHlo.unary main_v33 main_v37 ((extractStridedSlice S16x64x1 ![0, 0, 0] · slices_S16x64x9_S16x64x1_0_0_0) : (⟨S16x64x9, .f32⟩ : BufTy).Contents (Elt F) → (⟨S16x64x1, .f32⟩ : BufTy).Contents (Elt F)),
    StableHlo.reshape main_v37 main_v38 rfl shapeCasts_S16x64x1_S16x64,
    StableHlo.unary main_v38 main_v39 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v39 main_v40 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v36 main_v40 main_v41 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v35 main_v41 main_v42 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v43 ((extractStridedSlice S16x64x128x128 ![0, 0, 0, 1] · slices_S16x64x130x130_S16x64x128x128_0_0_0_1) : (⟨S16x64x130x130, .f32⟩ : BufTy).Contents (Elt F) → (⟨S16x64x128x128, .f32⟩ : BufTy).Contents (Elt F)),
    StableHlo.unary main_v33 main_v44 ((extractStridedSlice S16x64x1 ![0, 0, 1] · slices_S16x64x9_S16x64x1_0_0_1) : (⟨S16x64x9, .f32⟩ : BufTy).Contents (Elt F) → (⟨S16x64x1, .f32⟩ : BufTy).Contents (Elt F)),
    StableHlo.reshape main_v44 main_v45 rfl shapeCasts_S16x64x1_S16x64,
    StableHlo.unary main_v45 main_v46 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v46 main_v47 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v43 main_v47 main_v48 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v42 main_v48 main_v49 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v50 ((extractStridedSlice S16x64x128x128 ![0, 0, 0, 2] · slices_S16x64x130x130_S16x64x128x128_0_0_0_2) : (⟨S16x64x130x130, .f32⟩ : BufTy).Contents (Elt F) → (⟨S16x64x128x128, .f32⟩ : BufTy).Contents (Elt F)),
    StableHlo.unary main_v33 main_v51 ((extractStridedSlice S16x64x1 ![0, 0, 2] · slices_S16x64x9_S16x64x1_0_0_2) : (⟨S16x64x9, .f32⟩ : BufTy).Contents (Elt F) → (⟨S16x64x1, .f32⟩ : BufTy).Contents (Elt F)),
    StableHlo.reshape main_v51 main_v52 rfl shapeCasts_S16x64x1_S16x64,
    StableHlo.unary main_v52 main_v53 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v53 main_v54 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v50 main_v54 main_v55 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v49 main_v55 main_v56 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v57 ((extractStridedSlice S16x64x128x128 ![0, 0, 1, 0] · slices_S16x64x130x130_S16x64x128x128_0_0_1_0) : (⟨S16x64x130x130, .f32⟩ : BufTy).Contents (Elt F) → (⟨S16x64x128x128, .f32⟩ : BufTy).Contents (Elt F)),
    StableHlo.unary main_v33 main_v58 ((extractStridedSlice S16x64x1 ![0, 0, 3] · slices_S16x64x9_S16x64x1_0_0_3) : (⟨S16x64x9, .f32⟩ : BufTy).Contents (Elt F) → (⟨S16x64x1, .f32⟩ : BufTy).Contents (Elt F)),
    StableHlo.reshape main_v58 main_v59 rfl shapeCasts_S16x64x1_S16x64,
    StableHlo.unary main_v59 main_v60 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v60 main_v61 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v57 main_v61 main_v62 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v56 main_v62 main_v63 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v64 ((extractStridedSlice S16x64x128x128 ![0, 0, 1, 1] · slices_S16x64x130x130_S16x64x128x128_0_0_1_1) : (⟨S16x64x130x130, .f32⟩ : BufTy).Contents (Elt F) → (⟨S16x64x128x128, .f32⟩ : BufTy).Contents (Elt F)),
    StableHlo.unary main_v33 main_v65 ((extractStridedSlice S16x64x1 ![0, 0, 4] · slices_S16x64x9_S16x64x1_0_0_4) : (⟨S16x64x9, .f32⟩ : BufTy).Contents (Elt F) → (⟨S16x64x1, .f32⟩ : BufTy).Contents (Elt F)),
    StableHlo.reshape main_v65 main_v66 rfl shapeCasts_S16x64x1_S16x64,
    StableHlo.unary main_v66 main_v67 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v67 main_v68 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v64 main_v68 main_v69 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v63 main_v69 main_v70 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v71 ((extractStridedSlice S16x64x128x128 ![0, 0, 1, 2] · slices_S16x64x130x130_S16x64x128x128_0_0_1_2) : (⟨S16x64x130x130, .f32⟩ : BufTy).Contents (Elt F) → (⟨S16x64x128x128, .f32⟩ : BufTy).Contents (Elt F)),
    StableHlo.unary main_v33 main_v72 ((extractStridedSlice S16x64x1 ![0, 0, 5] · slices_S16x64x9_S16x64x1_0_0_5) : (⟨S16x64x9, .f32⟩ : BufTy).Contents (Elt F) → (⟨S16x64x1, .f32⟩ : BufTy).Contents (Elt F)),
    StableHlo.reshape main_v72 main_v73 rfl shapeCasts_S16x64x1_S16x64,
    StableHlo.unary main_v73 main_v74 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v74 main_v75 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v71 main_v75 main_v76 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v70 main_v76 main_v77 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v78 ((extractStridedSlice S16x64x128x128 ![0, 0, 2, 0] · slices_S16x64x130x130_S16x64x128x128_0_0_2_0) : (⟨S16x64x130x130, .f32⟩ : BufTy).Contents (Elt F) → (⟨S16x64x128x128, .f32⟩ : BufTy).Contents (Elt F)),
    StableHlo.unary main_v33 main_v79 ((extractStridedSlice S16x64x1 ![0, 0, 6] · slices_S16x64x9_S16x64x1_0_0_6) : (⟨S16x64x9, .f32⟩ : BufTy).Contents (Elt F) → (⟨S16x64x1, .f32⟩ : BufTy).Contents (Elt F)),
    StableHlo.reshape main_v79 main_v80 rfl shapeCasts_S16x64x1_S16x64,
    StableHlo.unary main_v80 main_v81 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v81 main_v82 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v78 main_v82 main_v83 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v77 main_v83 main_v84 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v85 ((extractStridedSlice S16x64x128x128 ![0, 0, 2, 1] · slices_S16x64x130x130_S16x64x128x128_0_0_2_1) : (⟨S16x64x130x130, .f32⟩ : BufTy).Contents (Elt F) → (⟨S16x64x128x128, .f32⟩ : BufTy).Contents (Elt F)),
    StableHlo.unary main_v33 main_v86 ((extractStridedSlice S16x64x1 ![0, 0, 7] · slices_S16x64x9_S16x64x1_0_0_7) : (⟨S16x64x9, .f32⟩ : BufTy).Contents (Elt F) → (⟨S16x64x1, .f32⟩ : BufTy).Contents (Elt F)),
    StableHlo.reshape main_v86 main_v87 rfl shapeCasts_S16x64x1_S16x64,
    StableHlo.unary main_v87 main_v88 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v88 main_v89 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v85 main_v89 main_v90 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v84 main_v90 main_v91 (addf : (⟨S16x64x128x128, .f32⟩ : BufTy).Contents (Elt F) → (⟨S16x64x128x128, .f32⟩ : BufTy).Contents (Elt F) → (⟨S16x64x128x128, .f32⟩ : BufTy).Contents (Elt F)),
    StableHlo.unary main_v34 main_v92 ((extractStridedSlice S16x64x128x128 ![0, 0, 2, 2] · slices_S16x64x130x130_S16x64x128x128_0_0_2_2) : (⟨S16x64x130x130, .f32⟩ : BufTy).Contents (Elt F) → (⟨S16x64x128x128, .f32⟩ : BufTy).Contents (Elt F)),
    StableHlo.unary main_v33 main_v93 ((extractStridedSlice S16x64x1 ![0, 0, 8] · slices_S16x64x9_S16x64x1_0_0_8) : (⟨S16x64x9, .f32⟩ : BufTy).Contents (Elt F) → (⟨S16x64x1, .f32⟩ : BufTy).Contents (Elt F)),
    StableHlo.reshape main_v93 main_v94 rfl shapeCasts_S16x64x1_S16x64,
    StableHlo.unary main_v94 main_v95 (broadcastInDim S16x64x1x1 ![0, 1] bcast_S16x64_S16x64x1x1_0_1 : (⟨S16x64, .f32⟩ : BufTy).Contents (Elt F) → (⟨S16x64x1x1, .f32⟩ : BufTy).Contents (Elt F)),
    StableHlo.unary main_v95 main_v96 (broadcastInDim S16x64x128x128 ![0, 1, 2, 3] bcast_S16x64x1x1_S16x64x128x128_0_1_2_3 : (⟨S16x64x1x1, .f32⟩ : BufTy).Contents (Elt F) → (⟨S16x64x128x128, .f32⟩ : BufTy).Contents (Elt F)),
    StableHlo.binary main_v92 main_v96 main_v97 (mulf : (⟨S16x64x128x128, .f32⟩ : BufTy).Contents (Elt F) → (⟨S16x64x128x128, .f32⟩ : BufTy).Contents (Elt F) → (⟨S16x64x128x128, .f32⟩ : BufTy).Contents (Elt F)),
    StableHlo.binary main_v91 main_v97 main_v98 (addf : (⟨S16x64x128x128, .f32⟩ : BufTy).Contents (Elt F) → (⟨S16x64x128x128, .f32⟩ : BufTy).Contents (Elt F) → (⟨S16x64x128x128, .f32⟩ : BufTy).Contents (Elt F)),
    StableHlo.binary main_arg0 main_v98 main_v99 (subf : (⟨S16x64x128x128, .f32⟩ : BufTy).Contents (Elt F) → (⟨S16x64x128x128, .f32⟩ : BufTy).Contents (Elt F) → (⟨S16x64x128x128, .f32⟩ : BufTy).Contents (Elt F)) ]

theorem ops_split : (ops : List (HloOp τ sig (Elt F))) = seg1 ++ seg2 ++ seg3 := rfl

end Segments

/-- The contents after two lines run one after the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-! ## The three parts, each over any starting contents -/

set_option maxRecDepth 16384 in
theorem seg1_v33 (V : Valuation τ sig (Elt Ideal)) :
    after (seg1 (F := Ideal)) V (main_v33 : DevRef τ sig) = (glueR (pooledR (V (main_arg0 : DevRef τ sig))) (V (main_arg1 : DevRef τ sig)) (V (main_arg2 : DevRef τ sig)) (V (main_arg3 : DevRef τ sig)) (V (main_arg4 : DevRef τ sig)) (V (main_arg5 : DevRef τ sig))) := by
  after_results_simp
  rfl

theorem seg1_arg0 (V : Valuation τ sig (Elt Ideal)) :
    after (seg1 (F := Ideal)) V (main_arg0 : DevRef τ sig) = V (main_arg0 : DevRef τ sig) := by
  after_results_simp

set_option maxRecDepth 16384 in
theorem seg2_v34 (V : Valuation τ sig (Elt Ideal)) :
    after (seg2 (F := Ideal)) V (main_v34 : DevRef τ sig) = padR (V (main_arg0 : DevRef τ sig)) := by
  fold_results
  simp only [held2_def, TRef.toBuf, TRef.ofBuf, cast_eq]
  rfl

theorem seg2_v33 (V : Valuation τ sig (Elt Ideal)) :
    after (seg2 (F := Ideal)) V (main_v33 : DevRef τ sig) = V (main_v33 : DevRef τ sig) := by
  after_results_simp

theorem seg2_arg0 (V : Valuation τ sig (Elt Ideal)) :
    after (seg2 (F := Ideal)) V (main_arg0 : DevRef τ sig) = V (main_arg0 : DevRef τ sig) := by
  after_results_simp

set_option maxRecDepth 16384 in
set_option maxHeartbeats 2000000 in
theorem seg3_v98 (V : Valuation τ sig (Elt Ideal)) :
    after (seg3 (F := Ideal)) V (main_v98 : DevRef τ sig) = lowR (V (main_v34 : DevRef τ sig)) (V (main_v33 : DevRef τ sig)) := by
  after_results_simp
  rfl

set_option maxRecDepth 16384 in
set_option maxHeartbeats 2000000 in
theorem seg3_v99 (V : Valuation τ sig (Elt Ideal)) :
    after (seg3 (F := Ideal)) V (main_v99 : DevRef τ sig)
      = subf (V (main_arg0 : DevRef τ sig)) (lowR (V (main_v34 : DevRef τ sig)) (V (main_v33 : DevRef τ sig))) := by
  after_results_simp
  rfl

/-! ## The whole line at the two results and at the arguments -/

theorem v98_eq (V : Valuation τ sig (Elt Ideal)) :
    after (ops (F := Ideal)) V (main_v98 : DevRef τ sig) = Cert.Spec.low (V (main_arg0 : DevRef τ sig)) (glueR (pooledR (V (main_arg0 : DevRef τ sig))) (V (main_arg1 : DevRef τ sig)) (V (main_arg2 : DevRef τ sig)) (V (main_arg3 : DevRef τ sig)) (V (main_arg4 : DevRef τ sig)) (V (main_arg5 : DevRef τ sig))) := by
  rw [ops_split, after_append, after_append, seg3_v98, seg2_v34, seg2_v33, seg1_v33, seg1_arg0, lowR_padR]

theorem v99_eq (V : Valuation τ sig (Elt Ideal)) :
    after (ops (F := Ideal)) V (main_v99 : DevRef τ sig) = Cert.Spec.resid (V (main_arg0 : DevRef τ sig)) (glueR (pooledR (V (main_arg0 : DevRef τ sig))) (V (main_arg1 : DevRef τ sig)) (V (main_arg2 : DevRef τ sig)) (V (main_arg3 : DevRef τ sig)) (V (main_arg4 : DevRef τ sig)) (V (main_arg5 : DevRef τ sig))) := by
  rw [ops_split, after_append, after_append, seg3_v99, seg2_v34, seg2_v33, seg2_arg0, seg1_v33, seg1_arg0, resid_eq]

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

theorem arg4_eq (V : Valuation τ sig (Elt Ideal)) :
    after (ops (F := Ideal)) V (main_arg4 : DevRef τ sig) = V (main_arg4 : DevRef τ sig) := by
  after_results_simp

theorem arg5_eq (V : Valuation τ sig (Elt Ideal)) :
    after (ops (F := Ideal)) V (main_arg5 : DevRef τ sig) = V (main_arg5 : DevRef τ sig) := by
  after_results_simp

/-- On every device, from any memory with zero counters: every weakly fair execution of the reference terminates with
    its first result the specification's low-pass array of the image and the shared weights, its second the
    specification's residual, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v98) = Cert.Spec.low (m ((c.tc : Thread nD τ).loc main_arg0)) (glueR (pooledR (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v99) = Cert.Spec.resid (m ((c.tc : Thread nD τ).loc main_arg0)) (glueR (pooledR (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v98).trans (v98_eq _), (h c main_v99).trans (v99_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _)⟩)
    (run_fold m ρ)

end Cert.ReferenceIdeal.RefRead

end
-- ==== Proof.Bridge.lean ====
/-
  The two programs compute the same weights.

  The kernel's program casts its first kernel's [16, 1, 64] array of plane means to [16, 64]; the reference divides
  its own sum over each plane by the same 16384.  Entry (n, c) of either is the sum of plane (n, c) divided by
  16384 (the reference's sum starts from the zero word, which adds nothing), so the two [16, 64] arrays are equal.
  From there on both programs apply the same host operations, so the weight arrays are equal.
-/
import proofs.«177280_j19877108645998_1_alg».proof.Proof.KRun
import proofs.«177280_j19877108645998_1_alg».proof.Proof.RefGlue
import Idealize.ShloMosaic.PureOps.Ideal.Laws

set_option maxRecDepth 16384

noncomputable section

namespace Cert.Bridge

open Cert.ReferenceIdeal Cert.ReferenceIdeal.Gen Cert.ReferenceIdeal.RefRead
open Idealize.ShloMosaic Idealize.ShloMosaic.ValueIdx

/-- The host operations between the kernels are the reference's: the same operations on the same operands. -/
theorem glue_eq (p : FVec Ideal S16x64 .f32) (a1 : FVec Ideal S72x64 .f32) (a2 a3 a4 a5 : FVec Ideal S72 .f32) :
    Cert.KernelIdeal.Glue.glueK p a1 a2 a3 a4 a5 = glueR p a1 a2 a3 a4 a5 := rfl

/-- The first kernel's means, cast to [16, 64], are the reference's means. -/
theorem pooled_eq (x : FVec Ideal S16x64x128x128 .f32) :
    shapeCast Cert.KernelIdeal.S16x64 (Cert.KernelIdeal.Pool.meansK x) Cert.KernelIdeal.Gen.shapeCasts_S16x1x64_S16x64
      = pooledR x := by
  funext j
  obtain ⟨n, c, rfl⟩ : ∃ (n : Fin 16) (c : Fin 64), j = ix2 n c := ⟨j 0, j 1, eq_ix2 j⟩
  refine (shapeCast_apply _ _ (ix2 n c) (ix3 n (0 : Fin 1) c) ?_).trans ?_
  · rw [Shape.rowMajor_val_three, Shape.rowMajor_val_two]
    show (n.val * 1 + 0) * 64 + c.val = n.val * 64 + c.val
    omega
  · rw [Cert.KernelIdeal.Pool.meansK_apply]
    unfold Cert.Planes.planeMean
    show _ = Ideal.div (Ideal.hostReduceAdd reducesTo_S16x64x128x128_S16x64_d2_3 x (Ideal.ofBits .f32 0x00000000#32) (ix2 n c))
      (Ideal.ofBits .f32 0x46800000#32)
    rw [Cert.Planes.hostReduceAdd_plane4, Ideal.ofBits_zero_f32, zero_add]

/-- The weight array of the kernel's program is the reference's. -/
theorem weights_eq (x : FVec Ideal S16x64x128x128 .f32) (a1 : FVec Ideal S72x64 .f32) (a2 a3 a4 a5 : FVec Ideal S72 .f32) :
    Cert.KernelIdeal.Run.weightsK x a1 a2 a3 a4 a5 = glueR (pooledR x) a1 a2 a3 a4 a5 := by
  unfold Cert.KernelIdeal.Run.weightsK
  rw [pooled_eq x]
  exact glue_eq _ _ _ _ _ _

end Cert.Bridge

end
-- ==== Proof.lean ====
/-
  Both programs return the low-pass image and the residual.

  From an image x : [16, 64, 128, 128] both programs compute per-channel weights f : [16, 64, 9] — the mean of every
  plane of x, a 1×1 convolution of the means, a batch normalisation with the running statistics, a softmax over each
  group of nine and a repetition over the eight channels of a group — and return
      low(n, c, h, w) = Σ over the 3 × 3 window of  pad(x)(n, c, h + i, w + j) · f(n, c, 3 i + j)   and   x − low,
  where pad reflects one row and one column at each edge, and the nine terms are added in the same order from zero.
  The two programs differ in two ways only.  The kernel's program takes the means in a first kernel, one batch element
  per grid point, summing each plane in the kernel's order, and the filter in a second kernel, one batch element per
  grid point, padding in registers; the reference sums the planes in the host's order and pads the whole array.
  Over the extended reals a finite sum does not depend on its order, every other operation is applied to the same
  operands in the same order, and the host operations that turn means into weights are the same sequence in both
  programs; so the results are equal element by element, for every input.  The precondition is never used.

  The modules: the specification (Spec); the kernel's program read from its frame run — the run with the result arrays
  kept (KFrame), the first kernel's array of means (Planes, KPool), the host operations as one function (KGlue), the
  second kernel's body at an index (ConvPad, ConvTaps, ConvBody) and its result arrays (KConvArr), assembled (KRun);
  the reference's run (RefRun) and its results read as the specification (RefGlue, RefMath, RefRead); and the equality
  of the two weight arrays (Bridge).
-/
import proofs.«177280_j19877108645998_1_alg».proof.Defs
import proofs.«177280_j19877108645998_1_alg».proof.Proof.Gen.Kernel
import proofs.«177280_j19877108645998_1_alg».proof.Proof.Gen.Kernel.Skeleton
import proofs.«177280_j19877108645998_1_alg».proof.Proof.Gen.Kernel.Launch
import proofs.«177280_j19877108645998_1_alg».proof.Proof.Gen.Kernel.Points
import proofs.«177280_j19877108645998_1_alg».proof.Proof.Gen.Kernel.Frame
import proofs.«177280_j19877108645998_1_alg».proof.Proof.Gen.KernelIdeal
import proofs.«177280_j19877108645998_1_alg».proof.Proof.Gen.KernelIdeal.Skeleton
import proofs.«177280_j19877108645998_1_alg».proof.Proof.Gen.KernelIdeal.Launch
import proofs.«177280_j19877108645998_1_alg».proof.Proof.Gen.KernelIdeal.Points
import proofs.«177280_j19877108645998_1_alg».proof.Proof.Gen.KernelIdeal.Frame
import proofs.«177280_j19877108645998_1_alg».proof.Proof.Gen.ReferenceIdeal
import proofs.«177280_j19877108645998_1_alg».proof.Proof.Gen.Pre_finite_inputs
import proofs.«177280_j19877108645998_1_alg».proof.Proof.KRun
import proofs.«177280_j19877108645998_1_alg».proof.Proof.ConvBody
import proofs.«177280_j19877108645998_1_alg».proof.Proof.RefRead
import proofs.«177280_j19877108645998_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel's program terminates with its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference terminates with its arguments unchanged: its run, the two results forgotten. -/
theorem frame_ri : Cert.frame_ReferenceIdeal := fun m ρ _ =>
  (θ_run Cert.ReferenceIdeal.defs _ _).mono (fun _ h c => (h c).2.2) (Cert.ReferenceIdeal.RefRead.run m ρ)

/-- Reading the kernel's program over the extended reals rewrote no operation. -/
theorem preserves : Cert.preserves_Kernel_KernelIdeal := trivial

/-- From memories that agree on the arguments both programs end with the low-pass array and the residual array of
    the same image and the same weights. -/
theorem algebraic : Cert.algebraic_KernelIdeal_ReferenceIdeal := by
  intro m ρ m' ρ' _ hagree
  refine ⟨_, _, Cert.KernelIdeal.Run.run m ρ Cert.KernelIdeal.ConvBody.out1_2_apply Cert.KernelIdeal.ConvBody.out1_3_apply, ?_⟩
  refine (θ_run Cert.ReferenceIdeal.defs _ _).mono
    (fun _ h c => ⟨(h c).1.trans ?_, (h c).2.1.trans ?_, (h c).2.2⟩) (Cert.ReferenceIdeal.RefRead.run m' ρ')
  · rw [(hagree c).1, (hagree c).2.1, (hagree c).2.2.1, (hagree c).2.2.2.1, (hagree c).2.2.2.2.1, (hagree c).2.2.2.2.2,
      Cert.Bridge.weights_eq]
  · rw [(hagree c).1, (hagree c).2.1, (hagree c).2.2.1, (hagree c).2.2.2.1, (hagree c).2.2.2.2.1, (hagree c).2.2.2.2.2,
      Cert.Bridge.weights_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
